-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7168 : Shape := ⟨2, ![4096, 7168]⟩
abbrev S7168x2048 : Shape := ⟨2, ![7168, 2048]⟩
abbrev S_ : Shape := ⟨0, ![]⟩

class Facts : Prop where
  bcast_S_S4096x7168 : S_.BroadcastsInDim S4096x7168 (![] : Fin 0 → Fin S4096x7168.rank)
  reducesTo_S4096x7168_S_d0_1 : S4096x7168.ReducesTo [0, 1] S_
  h_S_ : 0 < S_.numel
  bcast_S_S7168x2048 : S_.BroadcastsInDim S7168x2048 (![] : Fin 0 → Fin S7168x2048.rank)
  reducesTo_S7168x2048_S_d0_1 : S7168x2048.ReducesTo [0, 1] S_

variable [Facts]

def fn {F : FTy → Type} [FloatOps F] (main_arg0 : FVec F S4096x7168 .f32) (main_arg1 : FVec F S4096x7168 .f32) (main_arg2 : FVec F S7168x2048 .f32) : IVec S_ 1 :=
  let main_v0 : FVec F S4096x7168 .f32 := Host.absf main_arg0
  let main_cst : FVec F S_ .f32 := constant S_ .f32 0x7F800000#32
  let main_v1 : FVec F S4096x7168 .f32 := broadcastInDim S4096x7168 ![] bcast_S_S4096x7168 main_cst
  let main_v2 : IVec S4096x7168 1 := cmpf .olt main_v0 main_v1
  let main_c : IVec S_ 1 := constantI S_ 1 1#1
  let main_v3 : IVec S_ 1 := (fun x v => Host.reduce IntOp.andi x v reducesTo_S4096x7168_S_d0_1 h_S_) main_v2 main_c
  let main_v4 : FVec F S4096x7168 .f32 := Host.absf main_arg1
  let main_cst_0 : FVec F S_ .f32 := constant S_ .f32 0x7F800000#32
  let main_v5 : FVec F S4096x7168 .f32 := broadcastInDim S4096x7168 ![] bcast_S_S4096x7168 main_cst_0
  let main_v6 : IVec S4096x7168 1 := cmpf .olt main_v4 main_v5
  let main_c_1 : IVec S_ 1 := constantI S_ 1 1#1
  let main_v7 : IVec S_ 1 := (fun x v => Host.reduce IntOp.andi x v reducesTo_S4096x7168_S_d0_1 h_S_) main_v6 main_c_1
  let main_v8 : IVec S_ 1 := andi main_v3 main_v7
  let main_v9 : FVec F S7168x2048 .f32 := Host.absf main_arg2
  let main_cst_2 : FVec F S_ .f32 := constant S_ .f32 0x7F800000#32
  let main_v10 : FVec F S7168x2048 .f32 := broadcastInDim S7168x2048 ![] bcast_S_S7168x2048 main_cst_2
  let main_v11 : IVec S7168x2048 1 := cmpf .olt main_v9 main_v10
  let main_c_3 : IVec S_ 1 := constantI S_ 1 1#1
  let main_v12 : IVec S_ 1 := (fun x v => Host.reduce IntOp.andi x v reducesTo_S7168x2048_S_d0_1 h_S_) main_v11 main_c_3
  let main_v13 : IVec S_ 1 := andi main_v8 main_v12
  main_v13
-- ==== Kernel.lean ====
abbrev S4096x7168 : Shape := ⟨2, ![4096, 7168]⟩
abbrev S7168x2048 : Shape := ⟨2, ![7168, 2048]⟩
abbrev S2048x7168 : Shape := ⟨2, ![2048, 7168]⟩
abbrev S4096x2048 : Shape := ⟨2, ![4096, 2048]⟩
abbrev S1024x512 : Shape := ⟨2, ![1024, 512]⟩
abbrev S1024x1024 : Shape := ⟨2, ![1024, 1024]⟩
abbrev S1024x2048 : Shape := ⟨2, ![1024, 2048]⟩
abbrev S1792x2048 : Shape := ⟨2, ![1792, 2048]⟩
abbrev S1024x1792 : Shape := ⟨2, ![1024, 1792]⟩

abbrev nBuf : Space → Nat
  | .hbm => 10
  | .vmem => 16
  | .smem => 0
  | _ => 0

abbrev bufTy : (tb : Table) → Fin (tcTables nBuf tb) → BufTy
  | .hbm, ⟨0, _⟩ => ⟨S4096x7168, .f32⟩
  | .hbm, ⟨1, _⟩ => ⟨S4096x7168, .f32⟩
  | .hbm, ⟨2, _⟩ => ⟨S7168x2048, .f32⟩
  | .hbm, ⟨3, _⟩ => ⟨S4096x7168, .bf16⟩
  | .hbm, ⟨4, _⟩ => ⟨S4096x7168, .bf16⟩
  | .hbm, ⟨5, _⟩ => ⟨S2048x7168, .bf16⟩
  | .hbm, ⟨6, _⟩ => ⟨S2048x7168, .bf16⟩
  | .hbm, ⟨7, _⟩ => ⟨S7168x2048, .bf16⟩
  | .hbm, ⟨8, _⟩ => ⟨S4096x2048, .bf16⟩
  | .hbm, ⟨9, _⟩ => ⟨S4096x7168, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S1024x2048, .bf16⟩
  | .local _ .vmem, ⟨12, _⟩ => ⟨S1792x2048, .bf16⟩
  | .local _ .vmem, ⟨13, _⟩ => ⟨S1792x2048, .bf16⟩
  | .local _ .vmem, ⟨14, _⟩ => ⟨S1024x1792, .f32⟩
  | .local _ .vmem, ⟨15, _⟩ => ⟨S1024x1792, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 2, 14], ![false, false, false]⟩

def k0_cond2 (i : grid0.Coords) : BitVec 1 :=
  let arg2 : BitVec 32 := BitVec.ofNat 32 (i 2).val
  let c13_i32 : BitVec 32 := 13#32
  let v23 : BitVec 1 := Scalar.cmpi .eq arg2 c13_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1792x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1792 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  slices_S4096x7168_S2048x7168_0_0 : S4096x7168.Slices ![0, 0] S2048x7168
  slices_S4096x7168_S2048x7168_2048_0 : S4096x7168.Slices ![2048, 0] S2048x7168
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1792x2048_S1792x2048_0_0 : ∀ a, (![0, 0] : Fin 2 → Nat) a + S1792x2048.size a ≤ S1792x2048.size a
  h_S1792x2048 : 0 < S1792x2048.numel
  shapeCasts_S1792x2048_S1792x2048 : S1792x2048.ShapeCasts S1792x2048
  inb_S1024x1792_S1024x1792_0_0 : ∀ a, (![0, 0] : Fin 2 → Nat) a + S1024x1792.size a ≤ S1024x1792.size a
  h_S1024x1792 : 0 < S1024x1792.numel
  dot_S1024x512_S1024x512_S1024x1024_1_1_0_0_n_n_wf : DotDims.WF S1024x512 S1024x512 S1024x1024 [1] [1] [0] [0] [] []
  dot_S1024x2048_S1792x2048_S1024x1792_1_1_0_0_n_n_wf : DotDims.WF S1024x2048 S1792x2048 S1024x1792 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x7168.size a
  hwx0_0 : ∀ i : grid0.Coords, EltTy.bits .bf16 = 32 ∨ (Rect.block (s := S4096x7168) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x7168.size a
  hwx0_1 : ∀ i : grid0.Coords, EltTy.bits .bf16 = 32 ∨ (Rect.block (s := S2048x7168) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x7168.size a
  hwx0_2 : ∀ i : grid0.Coords, EltTy.bits .bf16 = 32 ∨ (Rect.block (s := S2048x7168) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x2048.size a
  hwx0_3 : ∀ i : grid0.Coords, EltTy.bits .bf16 = 32 ∨ (Rect.block (s := S4096x2048) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1792x2048.size a ≤ S7168x2048.size a
  hwx1_1 : ∀ i : grid1.Coords, EltTy.bits .bf16 = 32 ∨ (Rect.block (s := S7168x2048) S1792x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1792.size a ≤ S4096x7168.size a
  hwx1_2 : ∀ i : grid1.Coords, EltTy.bits .f32 = 32 ∨ (Rect.block (s := S4096x7168) S1024x1792.size (cc1_transform_2 i) (hinb1_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x2048_S1792x2048_S1024x1792_1_1_0_0_n_n : DotDims S1024x2048 S1792x2048 S1024x1792 where
  lhsContracting := [1]
  rhsContracting := [1]
  lhsNonContracting := [0]
  rhsNonContracting := [0]
  lhsBatch := []
  rhsBatch := []
  wf := dot_S1024x2048_S1792x2048_S1024x1792_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1792x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1792.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x7168 : Shape := ⟨2, ![4096, 7168]⟩
abbrev S7168x2048 : Shape := ⟨2, ![7168, 2048]⟩
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x7168, .f32⟩
  | .hbm, ⟨2, _⟩ => ⟨S7168x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x7168, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S4096x4096_S4096x2048_0_0 : S4096x4096.Slices ![0, 0] S4096x2048
  slices_S4096x4096_S4096x2048_0_2048 : S4096x4096.Slices ![0, 2048] S4096x2048
  bcast_S_S4096x2048 : S_.BroadcastsInDim S4096x2048 (![] : Fin 0 → Fin S4096x2048.rank)
  dot_S4096x7168_S4096x7168_S4096x4096_1_1_0_0_n_n_wf : DotDims.WF S4096x7168 S4096x7168 S4096x4096 [1] [1] [0] [0] [] []
  dot_S4096x2048_S7168x2048_S4096x7168_1_1_0_0_n_n_wf : DotDims.WF S4096x2048 S7168x2048 S4096x7168 [1] [1] [0] [0] [] []

variable [Facts₀]

def dot_S4096x7168_S4096x7168_S4096x4096_1_1_0_0_n_n : DotDims S4096x7168 S4096x7168 S4096x4096 where
  lhsContracting := [1]
  rhsContracting := [1]
  lhsNonContracting := [0]
  rhsNonContracting := [0]
  lhsBatch := []
  rhsBatch := []
  wf := dot_S4096x7168_S4096x7168_S4096x4096_1_1_0_0_n_n_wf
def dot_S4096x2048_S7168x2048_S4096x7168_1_1_0_0_n_n : DotDims S4096x2048 S7168x2048 S4096x7168 where
  lhsContracting := [1]
  rhsContracting := [1]
  lhsNonContracting := [0]
  rhsNonContracting := [0]
  lhsBatch := []
  rhsBatch := []
  wf := dot_S4096x2048_S7168x2048_S4096x7168_1_1_0_0_n_n_wf

class Facts : Prop extends Facts₀ where

variable [Facts]
-- ==== Proof.KB.Shared.lean ====
/-
  The first pallas_call (the gate / up projections with the SwiGLU epilogue), on its grid of 4 x 2 x 14 points:
  what its three runs share. The last grid coordinate k walks the 14 blocks of the contraction; the body zeroes the two
  accumulators when k = 0, adds one block product to each at every k, and writes the hidden block when k = 13. In the
  row-major order of the points, k = 0 at the points t with t % 14 = 0 and k = 13 at those with t % 14 = 13. The hidden
  block's window is idle (nothing stored, nothing written back) except where k = 13.
-/
import proofs.«156917_j13950053777725_2_alg».proof.Proof.Gen.Kernel.Launch
import proofs.«156917_j13950053777725_2_alg».proof.Proof.Gen.Kernel.Skeleton
import proofs.«156917_j13950053777725_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The body's two conditions, in closed form over the grid -/

/-- "k = 0", as the body computes it from the last grid coordinate. -/
abbrev cond0_0 (i : grid0.Coords) : Prop := (Scalar.cmpi .ne (Scalar.extui (Scalar.cmpi .eq (BitVec.ofNat 32 (i 2).val) 0#32)) 0#32) = 1#1
/-- It holds at the points that start a run of 14. -/
theorem hcond0_0 : ∀ t : Fin cfg0.N, cond0_0 (grid0.coords t) ↔ t.val % 14 = 0 :=
  (by decide +kernel : ∀ t : Fin grid0.N, cond0_0 (grid0.coords t) ↔ t.val % 14 = 0)

/-- "k = 13", as the body computes it. -/
abbrev cond0_1 (i : grid0.Coords) : Prop := k0_cond2 i = 1#1
/-- It holds at the points that end a run of 14. -/
theorem hcond0_1 : ∀ t : Fin cfg0.N, cond0_1 (grid0.coords t) ↔ t.val % 14 = 13 :=
  (by decide +kernel : ∀ t : Fin grid0.N, cond0_1 (grid0.coords t) ↔ t.val % 14 = 13)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k is not 13 the hidden block's window is idle, -/
theorem idleAt0_3 : ∀ t : Fin cfg0.N, ¬cond0_1 (grid0.coords t) → cfg0.idle 3 (grid0.coords t) = true := by decide +kernel
/-- and not written back; -/
theorem noFlush0_3 : ∀ t : Fin cfg0.N, ¬cond0_1 (grid0.coords t) → (cfg0.win 3).flush t = false := by decide +kernel
/-- where k = 13 it is live. -/
theorem liveAt0_3 : ∀ t : Fin cfg0.N, cond0_1 (grid0.coords t) → cfg0.idle 3 (grid0.coords t) = false := by decide +kernel

/-! ## The memrefs the body is called with -/

/-- One staging buffer of the hidden block's window, through which its contents are stated. -/
abbrev VO0_3 : View sig .tc .vmem S1024x1024 .bf16 := (Memref.whole cc0_stg3_0 : Memref sig .tc .vmem S1024x1024 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own, carried from point to point. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers that are neither a staging buffer of this call nor an accumulator (the second call's staging
    buffers), each whole at some contents: they ride through this call untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) := by
  unfold Pipeline.ΦA restS; rw [scopedRest0_eq]; simp only [scM0_0, scM0_1, owns_whole]; try rfl

end Cert.Kernel.Fr

end
-- ==== Proof.KB.RunA.lean ====
/-
  The body of the first pallas_call where k = 0: the accumulators are zeroed, then one block product is added to each; the hidden block's buffer is handed back untouched.
-/
import proofs.«156917_j13950053777725_2_alg».proof.Proof.KB.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The pieces the body's stores leave in the hidden block's buffer and in the two accumulators (last first) in this
    case, with the proof that on whole memrefs — the three input blocks at their contents, the hidden block's buffer at contents handed back as they were, the
    accumulators at anything — the body runs to the continuation holding the inputs as they were and each
    stored buffer with its pieces written. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__up_gate_swiglu_kernel i arg3 harg3 arg4 harg4 arg5 harg5 arg6 harg6 arg7 harg7 arg8 harg8) K } := by
  refine ⟨[], ?_, ?_, fun xi3 E K => ?run⟩
  case run =>
    simp only [cc0__up_gate_swiglu_kernel_eq_skeleton]; unfold cc0__up_gate_swiglu_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Fr

end
-- ==== Proof.KB.RunB.lean ====
/-
  The body of the first pallas_call where 0 < k < 13: one block product is added to each accumulator, which the point before left; the hidden block's buffer is handed back untouched.
-/
import proofs.«156917_j13950053777725_2_alg».proof.Proof.KB.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The pieces the body's stores leave in the hidden block's buffer and in the two accumulators (last first) in this
    case, with the proof that on whole memrefs — the three input blocks at their contents, the hidden block's buffer at contents handed back as they were, the
    accumulators at what the point before left — the body runs to the continuation holding the inputs as they were and each
    stored buffer with its pieces written. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__up_gate_swiglu_kernel i arg3 harg3 arg4 harg4 arg5 harg5 arg6 harg6 arg7 harg7 arg8 harg8) K } := by
  refine ⟨[], ?_, ?_, fun xi3 E K => ?run⟩
  case run =>
    simp only [cc0__up_gate_swiglu_kernel_eq_skeleton]; unfold cc0__up_gate_swiglu_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Fr

end
-- ==== Proof.KB.RunC.lean ====
/-
  The body of the first pallas_call where k = 13: the last block product is added to each accumulator, and the hidden block silu(gate) * up is stored.
-/
import proofs.«156917_j13950053777725_2_alg».proof.Proof.KB.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The pieces the body's stores leave in the hidden block's buffer and in the two accumulators (last first) in this
    case, with the proof that on whole memrefs — the three input blocks at their contents, the hidden block's buffer at anything, the
    accumulators at what the point before left — the body runs to the continuation holding the inputs as they were and each
    stored buffer with its pieces written. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__up_gate_swiglu_kernel i arg3 harg3 arg4 harg4 arg5 harg5 arg6 harg6 arg7 harg7 arg8 harg8) K } := by
  refine ⟨?_, ?_, ?_, fun E K => ?run⟩
  case run =>
    simp only [cc0__up_gate_swiglu_kernel_eq_skeleton]; unfold cc0__up_gate_swiglu_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Fr

end
-- ==== Proof.KB.Reg0.lean ====
/-
  The first pallas_call at any contents V of the buffers when it is entered: what its body leaves, point by point.

  The grid's points are walked in row-major order of (i, j, k); k, the last coordinate, walks the 14 blocks of the
  contraction. The two accumulators are carried from one point to the next: at k = 0 they are zeroed and receive the first
  block product; at each later k one more block product is added to what the point before left; at k = 13 the hidden
  block silu(gate) * up is stored and written back. `outsAt0` is this recurrence, `PhiS` the invariant "before point
  n + 1 the accumulators hold what point n left", and the body obligation says every point's body respects them.
-/
import proofs.«156917_j13950053777725_2_alg».proof.Proof.KB.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- What this case leaves in the hidden block's buffer: its pieces read back (none: a placeholder nothing consults, the window being idle here). -/
def out0_A_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) : Vec F S1024x1024 .bf16 :=
  VO0_3.read (Elt F) (VO0_3.writes (Elt F) VO0_3.junk (kernelRun0_A c i arg3 harg3 arg4 harg4 arg5 harg5 arg6 harg6 arg7 harg7 arg8 harg8 hc0 hc1 x0 x1 x2).1)

/-- This case's stores into the gate accumulator cover it. -/
theorem scover0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) (y : S1024x1024.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1024x1024.size (by sl_kernel_rfl) y

/-- What this case leaves in the gate accumulator. -/
def sout0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) : Vec F S1024x1024 .f32 :=
  VS0_0.read (Elt F) (VS0_0.writes (Elt F) VS0_0.junk (kernelRun0_A c i arg3 harg3 arg4 harg4 arg5 harg5 arg6 harg6 arg7 harg7 arg8 harg8 hc0 hc1 x0 x1 x2).2.1)

/-- This case's stores into the up accumulator cover it. -/
theorem scover0_A_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) (y : S1024x1024.Idx) :
    ∃ pc ∈ (kernelRun0_A c i arg3 harg3 arg4 harg4 arg5 harg5 arg6 harg6 arg7 harg7 arg8 harg8 hc0 hc1 x0 x1 x2).2.2.1, y ∈ pc.1.set :=
  View.cover_of_tiledL (kernelRun0_A c i arg3 harg3 arg4 harg4 arg5 harg5 arg6 harg6 arg7 harg7 arg8 harg8 hc0 hc1 x0 x1 x2).2.2.1 S1024x1024.size (by sl_kernel_rfl) y

/-- What this case leaves in the up accumulator. -/
def sout0_A_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) : Vec F S1024x1024 .f32 :=
  VS0_1.read (Elt F) (VS0_1.writes (Elt F) VS0_1.junk (kernelRun0_A c i arg3 harg3 arg4 harg4 arg5 harg5 arg6 harg6 arg7 harg7 arg8 harg8 hc0 hc1 x0 x1 x2).2.2.1)

/-- What this case leaves in the hidden block's buffer: its pieces read back (none: a placeholder nothing consults, the window being idle here). -/
def out0_B_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 arg8 harg8 hc0 hc1 x0 x1 x2 xs0 xs1).1)

/-- This case's stores into the gate accumulator cover it. -/
theorem scover0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL (kernelRun0_B c i arg3 harg3 arg4 harg4 arg5 harg5 arg6 harg6 arg7 harg7 arg8 harg8 hc0 hc1 x0 x1 x2 xs0 xs1).2.1 S1024x1024.size (by sl_kernel_rfl) y

/-- What this case leaves in the gate accumulator. -/
def sout0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 hc1 x0 x1 x2 xs0 xs1).2.1)

/-- This case's stores into the up accumulator cover it. -/
theorem scover0_B_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).2.2.1, y ∈ pc.1.set :=
  View.cover_of_tiledL (kernelRun0_B c i arg3 harg3 arg4 harg4 arg5 harg5 arg6 harg6 arg7 harg7 arg8 harg8 hc0 hc1 x0 x1 x2 xs0 xs1).2.2.1 S1024x1024.size (by sl_kernel_rfl) y

/-- What this case leaves in the up accumulator. -/
def sout0_B_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 hc0 hc1 x0 x1 x2 xs0 xs1).2.2.1)

/-- The hidden block's one store covers its buffer. -/
theorem cover0_C_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).1, y ∈ pc.1.set :=
  View.cover_of_tiledL (kernelRun0_C c i arg3 harg3 arg4 harg4 arg5 harg5 arg6 harg6 arg7 harg7 arg8 harg8 hc0 hc1 x0 x1 x2 xs0 xs1).1 S1024x1024.size (by sl_kernel_rfl) y

/-- What this case leaves in the hidden block's buffer: its pieces read back. -/
def out0_C_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 arg8 harg8 hc0 hc1 x0 x1 x2 xs0 xs1).1)

/-- This case's stores into the gate accumulator cover it. -/
theorem scover0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.1, y ∈ pc.1.set :=
  View.cover_of_tiledL (kernelRun0_C c i arg3 harg3 arg4 harg4 arg5 harg5 arg6 harg6 arg7 harg7 arg8 harg8 hc0 hc1 x0 x1 x2 xs0 xs1).2.1 S1024x1024.size (by sl_kernel_rfl) y

/-- What this case leaves in the gate accumulator. -/
def sout0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 hc0 hc1 x0 x1 x2 xs0 xs1).2.1)

/-- This case's stores into the up accumulator cover it. -/
theorem scover0_C_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.2.1, y ∈ pc.1.set :=
  View.cover_of_tiledL (kernelRun0_C c i arg3 harg3 arg4 harg4 arg5 harg5 arg6 harg6 arg7 harg7 arg8 harg8 hc0 hc1 x0 x1 x2 xs0 xs1).2.2.1 S1024x1024.size (by sl_kernel_rfl) y

/-- What this case leaves in the up accumulator. -/
def sout0_C_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 hc0 hc1 x0 x1 x2 xs0 xs1).2.2.1)

section
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the hidden block's buffer and the two accumulators hold after the body at position n: the case
    the position is in (k = 0, 0 < k < 13, k = 13), run at the point's memrefs and input blocks, the accumulators at what
    position n - 1 left when k > 0. -/
def outsAt0 (c : Dev nD) : (n : ℕ) → n < cfg0.N → Vec F S1024x1024 .bf16 × Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 14 = 0 then
      if h1 : (n + 1) % 14 = 13 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 14 = 13 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a point with k = 0. -/
theorem outsAt0_A (c : Dev nD) (t : Fin cfg0.N) (h0 : t.val % 14 = 0) (h1 : ¬t.val % 14 = 13) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point with 0 < k < 13: over what the point before left. -/
theorem outsAt0_B (c : Dev nD) (t : Fin cfg0.N) (h0 : ¬t.val % 14 = 0) (h1 : ¬t.val % 14 = 13) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 13: over what the point before left. -/
theorem outsAt0_C (c : Dev nD) (t : Fin cfg0.N) (h0 : ¬t.val % 14 = 0) (h1 : t.val % 14 = 13) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The call's invariant before position n: before the first point every scoped buffer that is no staging buffer of this
    call at anything; afterwards the two accumulators at what the point before left, the other such buffers at anything;
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ restS c) ∗ (∃ r, prngReg c r)) := by
  cases n with
  | zero => exact absurd rfl hz
  | succ n => rfl

/-- The proof data of the first call on core c: the arrays as the call finds them; after the body at point t each input's
    buffer at its block and the hidden block's at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]; try rfl
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]; try rfl
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]; try rfl

set_option maxHeartbeats 4800000 in
/-- The body at any point: the inputs' memrefs hold their blocks; the position's remainder modulo 14 says which case the
    point is in; the invariant hands the body the accumulators at what the point before left (at anything at the very first
    point) and takes them back at this point's contents; the hidden block's buffer is handed back untouched where the
    window is idle and at the stored block where k = 13; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 112 := lt_of_lt_of_eq t.isLt (show cfg0.N = 112 from N_0)
  by_cases h0 : t.val % 14 = 0
  · have h1 : ¬t.val % 14 = 13 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0 sout0_A_1; (try dsimp only)
    by_cases hz : t.val = 0
    ·
      rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · by_cases h1 : t.val % 14 = 13
    · have hz : t.val ≠ 0 := by omega
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · have hz : t.val ≠ 0 := by omega
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 112 := N_0; omega)

end

end Cert.Kernel.Fr

end
-- ==== Proof.KB.Reg1.lean ====
/-
  The second pallas_call (the down projection) on its grid of 4 x 4 points, at any contents V of the buffers when it is
  entered: at a point the body loads a block of 1024 hidden rows and a block of 1792 rows of the weights, multiplies the
  first by the transpose of the second into a zero accumulator, and stores the 1024 x 1792 result block. Its proof data:
  each input's buffer holds its block, the output's buffer the product of the two blocks.
-/
import proofs.«156917_j13950053777725_2_alg».proof.Proof.Gen.Kernel.Launch
import proofs.«156917_j13950053777725_2_alg».proof.Proof.Gen.Kernel.Skeleton
import proofs.«156917_j13950053777725_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x2048 := Rect.unit (s := S1024x2048) ![0, 0] S1024x2048.size inb_S1024x2048_S1024x2048_0_0
abbrev r1_1 : Rect S1792x2048 := Rect.unit (s := S1792x2048) ![0, 0] S1792x2048.size inb_S1792x2048_S1792x2048_0_0
abbrev r1_2 : Rect S1024x1792 := Rect.unit (s := S1024x1792) ![0, 0] S1024x1792.size inb_S1024x1792_S1024x1792_0_0

/-- The output buffer after the body, from the two input blocks: its one store. -/
def out1_2 (x0 : Vec F S1024x2048 .bf16) (x1 : Vec F S1792x2048 .bf16) : Vec F S1024x1792 .f32 :=
  View.canon [⟨r1_2, k1_pay1 (View.ld x0 r1_0) (View.ld x1 r1_1)⟩]

/-- The one store covers the buffer. -/
theorem cover1_2 (p0 : Vec F S1024x1792 .f32) (y : S1024x1792.Idx) :
    ∃ pc ∈ ([⟨r1_2, p0⟩] : List (View.Piece (Elt F) S1024x1792 .f32)), y ∈ pc.1.set :=
  View.cover_of_tiled [⟨r1_2, p0⟩] S1024x1792.size (by rfl) y

set_option maxHeartbeats 1000000 in
/-- The body on whole staging memrefs, the inputs at contents x0, x1 and the output at anything, runs to the continuation
    holding the inputs as they were and the output at the product block. -/
theorem sound_kernel1 (c : Dev nD) (E : Set ℕ) (i : grid1.Coords) (arg2 : Memref sig .tc .vmem S1024x2048 .bf16) (harg2 : arg2.IsWhole) (arg3 : Memref sig .tc .vmem S1792x2048 .bf16) (harg3 : arg3.IsWhole) (arg4 : Memref sig .tc .vmem S1024x1792 .f32) (harg4 : arg4.IsWhole)
    (x0 : Vec F S1024x2048 .bf16) (x1 : Vec F S1792x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__down_proj_kernel i arg2 harg2 arg3 harg3 arg4 harg4) K := by
  simp only [cc1__down_proj_kernel_eq_skeleton]; unfold cc1__down_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second call on core c: the arrays as the call finds them; after the body at point t each
    input's buffer at its block and the output's at the product of the two blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.KB.Main.lean ====
/-
  The whole run of the program: five host operations (three changes of float format and two row slices), then the two
  pallas_calls. The contents of the unscoped buffers at each boundary are a fold from the launch memory: after the host
  operations; after the first call (its arrays at what its write-backs leave, every other buffer as entered); after the
  second call likewise. Every weakly fair execution terminates, and every final state holds each unscoped buffer at the
  last boundary's contents — in particular the three arguments as launched, and the result at what the second call's
  write-backs leave.
-/
import proofs.«156917_j13950053777725_2_alg».proof.Proof.KB.Reg0
import proofs.«156917_j13950053777725_2_alg».proof.Proof.KB.Reg1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit (the second call's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and neither call stages one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- Call 0 as a segment over the thread state "every unscoped buffer at the boundary's contents, the generator register
    at some state, nothing owed": its arrays split out of the unscoped buffers at entry and put back at the exit contents;
    the generator register into the call's invariant and out; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment over the thread state "every unscoped buffer at the boundary's contents, the generator register
    at some state, nothing owed": its arrays split out of the unscoped buffers at entry and put back at the exit contents;
    the generator register into the call's invariant and out; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution terminates, nothing faulting, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same run with the result named: the result buffer ends at what the second call's write-backs leave. -/
theorem run_result : θ_run defs (onTc (τ := τ) (main (F := F))) ⟨m, fun _ => 0, ρ⟩ (fun r => ∀ c : Dev nD,
      r.2.mem ((c.tc : Thread nD τ).loc main_v6) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Fr

end
-- ==== Proof.KI.Shared.lean ====
/-
  The first pallas_call (the gate / up projections with the SwiGLU epilogue), on its grid of 4 x 2 x 14 points:
  what its three runs share. The last grid coordinate k walks the 14 blocks of the contraction; the body zeroes the two
  accumulators when k = 0, adds one block product to each at every k, and writes the hidden block when k = 13. In the
  row-major order of the points, k = 0 at the points t with t % 14 = 0 and k = 13 at those with t % 14 = 13. The hidden
  block's window is idle (nothing stored, nothing written back) except where k = 13.
-/
import proofs.«156917_j13950053777725_2_alg».proof.Proof.Gen.KernelIdeal.Launch
import proofs.«156917_j13950053777725_2_alg».proof.Proof.Gen.KernelIdeal.Skeleton
import proofs.«156917_j13950053777725_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The body's two conditions, in closed form over the grid -/

/-- "k = 0", as the body computes it from the last grid coordinate. -/
abbrev cond0_0 (i : grid0.Coords) : Prop := (Scalar.cmpi .ne (Scalar.extui (Scalar.cmpi .eq (BitVec.ofNat 32 (i 2).val) 0#32)) 0#32) = 1#1
/-- It holds at the points that start a run of 14. -/
theorem hcond0_0 : ∀ t : Fin cfg0.N, cond0_0 (grid0.coords t) ↔ t.val % 14 = 0 :=
  (by decide +kernel : ∀ t : Fin grid0.N, cond0_0 (grid0.coords t) ↔ t.val % 14 = 0)

/-- "k = 13", as the body computes it. -/
abbrev cond0_1 (i : grid0.Coords) : Prop := k0_cond2 i = 1#1
/-- It holds at the points that end a run of 14. -/
theorem hcond0_1 : ∀ t : Fin cfg0.N, cond0_1 (grid0.coords t) ↔ t.val % 14 = 13 :=
  (by decide +kernel : ∀ t : Fin grid0.N, cond0_1 (grid0.coords t) ↔ t.val % 14 = 13)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k is not 13 the hidden block's window is idle, -/
theorem idleAt0_3 : ∀ t : Fin cfg0.N, ¬cond0_1 (grid0.coords t) → cfg0.idle 3 (grid0.coords t) = true := by decide +kernel
/-- and not written back; -/
theorem noFlush0_3 : ∀ t : Fin cfg0.N, ¬cond0_1 (grid0.coords t) → (cfg0.win 3).flush t = false := by decide +kernel
/-- where k = 13 it is live. -/
theorem liveAt0_3 : ∀ t : Fin cfg0.N, cond0_1 (grid0.coords t) → cfg0.idle 3 (grid0.coords t) = false := by decide +kernel

/-! ## The memrefs the body is called with -/

/-- One staging buffer of the hidden block's window, through which its contents are stated. -/
abbrev VO0_3 : View sig .tc .vmem S1024x1024 .bf16 := (Memref.whole cc0_stg3_0 : Memref sig .tc .vmem S1024x1024 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own, carried from point to point. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers that are neither a staging buffer of this call nor an accumulator (the second call's staging
    buffers), each whole at some contents: they ride through this call untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) := by
  unfold Pipeline.ΦA restS; rw [scopedRest0_eq]; simp only [scM0_0, scM0_1, owns_whole]; try rfl

end Cert.KernelIdeal.Fr

end
-- ==== Proof.KI.RunA.lean ====
/-
  The body of the first pallas_call where k = 0: the accumulators are zeroed, then one block product is added to each; the hidden block's buffer is handed back untouched.
-/
import proofs.«156917_j13950053777725_2_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The pieces the body's stores leave in the hidden block's buffer and in the two accumulators (last first) in this
    case, with the proof that on whole memrefs — the three input blocks at their contents, the hidden block's buffer at contents handed back as they were, the
    accumulators at anything — the body runs to the continuation holding the inputs as they were and each
    stored buffer with its pieces written. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__up_gate_swiglu_kernel i arg3 harg3 arg4 harg4 arg5 harg5 arg6 harg6 arg7 harg7 arg8 harg8) K } := by
  refine ⟨[], ?_, ?_, fun xi3 E K => ?run⟩
  case run =>
    simp only [cc0__up_gate_swiglu_kernel_eq_skeleton]; unfold cc0__up_gate_swiglu_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Fr

end
-- ==== Proof.KI.RunB.lean ====
/-
  The body of the first pallas_call where 0 < k < 13: one block product is added to each accumulator, which the point before left; the hidden block's buffer is handed back untouched.
-/
import proofs.«156917_j13950053777725_2_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The pieces the body's stores leave in the hidden block's buffer and in the two accumulators (last first) in this
    case, with the proof that on whole memrefs — the three input blocks at their contents, the hidden block's buffer at contents handed back as they were, the
    accumulators at what the point before left — the body runs to the continuation holding the inputs as they were and each
    stored buffer with its pieces written. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__up_gate_swiglu_kernel i arg3 harg3 arg4 harg4 arg5 harg5 arg6 harg6 arg7 harg7 arg8 harg8) K } := by
  refine ⟨[], ?_, ?_, fun xi3 E K => ?run⟩
  case run =>
    simp only [cc0__up_gate_swiglu_kernel_eq_skeleton]; unfold cc0__up_gate_swiglu_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Fr

end
-- ==== Proof.KI.RunC.lean ====
/-
  The body of the first pallas_call where k = 13: the last block product is added to each accumulator, and the hidden block silu(gate) * up is stored.
-/
import proofs.«156917_j13950053777725_2_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The pieces the body's stores leave in the hidden block's buffer and in the two accumulators (last first) in this
    case, with the proof that on whole memrefs — the three input blocks at their contents, the hidden block's buffer at anything, the
    accumulators at what the point before left — the body runs to the continuation holding the inputs as they were and each
    stored buffer with its pieces written. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__up_gate_swiglu_kernel i arg3 harg3 arg4 harg4 arg5 harg5 arg6 harg6 arg7 harg7 arg8 harg8) K } := by
  refine ⟨?_, ?_, ?_, fun E K => ?run⟩
  case run =>
    simp only [cc0__up_gate_swiglu_kernel_eq_skeleton]; unfold cc0__up_gate_swiglu_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Fr

end
-- ==== Proof.KI.Reg0.lean ====
/-
  The first pallas_call at any contents V of the buffers when it is entered: what its body leaves, point by point.

  The grid's points are walked in row-major order of (i, j, k); k, the last coordinate, walks the 14 blocks of the
  contraction. The two accumulators are carried from one point to the next: at k = 0 they are zeroed and receive the first
  block product; at each later k one more block product is added to what the point before left; at k = 13 the hidden
  block silu(gate) * up is stored and written back. `outsAt0` is this recurrence, `PhiS` the invariant "before point
  n + 1 the accumulators hold what point n left", and the body obligation says every point's body respects them.
-/
import proofs.«156917_j13950053777725_2_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- What this case leaves in the hidden block's buffer: its pieces read back (none: a placeholder nothing consults, the window being idle here). -/
def out0_A_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) : Vec F S1024x1024 .bf16 :=
  VO0_3.read (Elt F) (VO0_3.writes (Elt F) VO0_3.junk (kernelRun0_A c i arg3 harg3 arg4 harg4 arg5 harg5 arg6 harg6 arg7 harg7 arg8 harg8 hc0 hc1 x0 x1 x2).1)

/-- This case's stores into the gate accumulator cover it. -/
theorem scover0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) (y : S1024x1024.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1024x1024.size (by sl_kernel_rfl) y

/-- What this case leaves in the gate accumulator. -/
def sout0_A_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) : Vec F S1024x1024 .f32 :=
  VS0_0.read (Elt F) (VS0_0.writes (Elt F) VS0_0.junk (kernelRun0_A c i arg3 harg3 arg4 harg4 arg5 harg5 arg6 harg6 arg7 harg7 arg8 harg8 hc0 hc1 x0 x1 x2).2.1)

/-- This case's stores into the up accumulator cover it. -/
theorem scover0_A_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) (y : S1024x1024.Idx) :
    ∃ pc ∈ (kernelRun0_A c i arg3 harg3 arg4 harg4 arg5 harg5 arg6 harg6 arg7 harg7 arg8 harg8 hc0 hc1 x0 x1 x2).2.2.1, y ∈ pc.1.set :=
  View.cover_of_tiledL (kernelRun0_A c i arg3 harg3 arg4 harg4 arg5 harg5 arg6 harg6 arg7 harg7 arg8 harg8 hc0 hc1 x0 x1 x2).2.2.1 S1024x1024.size (by sl_kernel_rfl) y

/-- What this case leaves in the up accumulator. -/
def sout0_A_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) : Vec F S1024x1024 .f32 :=
  VS0_1.read (Elt F) (VS0_1.writes (Elt F) VS0_1.junk (kernelRun0_A c i arg3 harg3 arg4 harg4 arg5 harg5 arg6 harg6 arg7 harg7 arg8 harg8 hc0 hc1 x0 x1 x2).2.2.1)

/-- What this case leaves in the hidden block's buffer: its pieces read back (none: a placeholder nothing consults, the window being idle here). -/
def out0_B_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 arg8 harg8 hc0 hc1 x0 x1 x2 xs0 xs1).1)

/-- This case's stores into the gate accumulator cover it. -/
theorem scover0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL (kernelRun0_B c i arg3 harg3 arg4 harg4 arg5 harg5 arg6 harg6 arg7 harg7 arg8 harg8 hc0 hc1 x0 x1 x2 xs0 xs1).2.1 S1024x1024.size (by sl_kernel_rfl) y

/-- What this case leaves in the gate accumulator. -/
def sout0_B_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 hc1 x0 x1 x2 xs0 xs1).2.1)

/-- This case's stores into the up accumulator cover it. -/
theorem scover0_B_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) (y : S1024x1024.Idx) :
    ∃ pc ∈ (kernelRun0_B c i arg3 harg3 arg4 harg4 arg5 harg5 arg6 harg6 arg7 harg7 arg8 harg8 hc0 hc1 x0 x1 x2 xs0 xs1).2.2.1, y ∈ pc.1.set :=
  View.cover_of_tiledL (kernelRun0_B c i arg3 harg3 arg4 harg4 arg5 harg5 arg6 harg6 arg7 harg7 arg8 harg8 hc0 hc1 x0 x1 x2 xs0 xs1).2.2.1 S1024x1024.size (by sl_kernel_rfl) y

/-- What this case leaves in the up accumulator. -/
def sout0_B_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 hc0 hc1 x0 x1 x2 xs0 xs1).2.2.1)

/-- The hidden block's one store covers its buffer. -/
theorem cover0_C_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).1, y ∈ pc.1.set :=
  View.cover_of_tiledL (kernelRun0_C c i arg3 harg3 arg4 harg4 arg5 harg5 arg6 harg6 arg7 harg7 arg8 harg8 hc0 hc1 x0 x1 x2 xs0 xs1).1 S1024x1024.size (by sl_kernel_rfl) y

/-- What this case leaves in the hidden block's buffer: its pieces read back. -/
def out0_C_3 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 arg8 harg8 hc0 hc1 x0 x1 x2 xs0 xs1).1)

/-- This case's stores into the gate accumulator cover it. -/
theorem scover0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.1, y ∈ pc.1.set :=
  View.cover_of_tiledL (kernelRun0_C c i arg3 harg3 arg4 harg4 arg5 harg5 arg6 harg6 arg7 harg7 arg8 harg8 hc0 hc1 x0 x1 x2 xs0 xs1).2.1 S1024x1024.size (by sl_kernel_rfl) y

/-- What this case leaves in the gate accumulator. -/
def sout0_C_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 hc0 hc1 x0 x1 x2 xs0 xs1).2.1)

/-- This case's stores into the up accumulator cover it. -/
theorem scover0_C_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) (y : S1024x1024.Idx) :
    ∃ pc ∈ (kernelRun0_C c i arg3 harg3 arg4 harg4 arg5 harg5 arg6 harg6 arg7 harg7 arg8 harg8 hc0 hc1 x0 x1 x2 xs0 xs1).2.2.1, y ∈ pc.1.set :=
  View.cover_of_tiledL (kernelRun0_C c i arg3 harg3 arg4 harg4 arg5 harg5 arg6 harg6 arg7 harg7 arg8 harg8 hc0 hc1 x0 x1 x2 xs0 xs1).2.2.1 S1024x1024.size (by sl_kernel_rfl) y

/-- What this case leaves in the up accumulator. -/
def sout0_C_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 hc0 hc1 x0 x1 x2 xs0 xs1).2.2.1)

section
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the hidden block's buffer and the two accumulators hold after the body at position n: the case
    the position is in (k = 0, 0 < k < 13, k = 13), run at the point's memrefs and input blocks, the accumulators at what
    position n - 1 left when k > 0. -/
def outsAt0 (c : Dev nD) : (n : ℕ) → n < cfg0.N → Vec F S1024x1024 .bf16 × Vec F S1024x1024 .f32 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 14 = 0 then
      if h1 : (n + 1) % 14 = 13 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 14 = 13 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a point with k = 0. -/
theorem outsAt0_A (c : Dev nD) (t : Fin cfg0.N) (h0 : t.val % 14 = 0) (h1 : ¬t.val % 14 = 13) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point with 0 < k < 13: over what the point before left. -/
theorem outsAt0_B (c : Dev nD) (t : Fin cfg0.N) (h0 : ¬t.val % 14 = 0) (h1 : ¬t.val % 14 = 13) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 13: over what the point before left. -/
theorem outsAt0_C (c : Dev nD) (t : Fin cfg0.N) (h0 : ¬t.val % 14 = 0) (h1 : t.val % 14 = 13) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The call's invariant before position n: before the first point every scoped buffer that is no staging buffer of this
    call at anything; afterwards the two accumulators at what the point before left, the other such buffers at anything;
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ restS c) ∗ (∃ r, prngReg c r)) := by
  cases n with
  | zero => exact absurd rfl hz
  | succ n => rfl

/-- The proof data of the first call on core c: the arrays as the call finds them; after the body at point t each input's
    buffer at its block and the hidden block's at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]; try rfl
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]; try rfl
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]; try rfl

set_option maxHeartbeats 4800000 in
/-- The body at any point: the inputs' memrefs hold their blocks; the position's remainder modulo 14 says which case the
    point is in; the invariant hands the body the accumulators at what the point before left (at anything at the very first
    point) and takes them back at this point's contents; the hidden block's buffer is handed back untouched where the
    window is idle and at the stored block where k = 13; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 112 := lt_of_lt_of_eq t.isLt (show cfg0.N = 112 from N_0)
  by_cases h0 : t.val % 14 = 0
  · have h1 : ¬t.val % 14 = 13 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0 sout0_A_1; (try dsimp only)
    by_cases hz : t.val = 0
    ·
      rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · by_cases h1 : t.val % 14 = 13
    · have hz : t.val ≠ 0 := by omega
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · have hz : t.val ≠ 0 := by omega
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 112 := N_0; omega)

end

end Cert.KernelIdeal.Fr

end
-- ==== Proof.KI.Reg1.lean ====
/-
  The second pallas_call (the down projection) on its grid of 4 x 4 points, at any contents V of the buffers when it is
  entered: at a point the body loads a block of 1024 hidden rows and a block of 1792 rows of the weights, multiplies the
  first by the transpose of the second into a zero accumulator, and stores the 1024 x 1792 result block. Its proof data:
  each input's buffer holds its block, the output's buffer the product of the two blocks.
-/
import proofs.«156917_j13950053777725_2_alg».proof.Proof.Gen.KernelIdeal.Launch
import proofs.«156917_j13950053777725_2_alg».proof.Proof.Gen.KernelIdeal.Skeleton
import proofs.«156917_j13950053777725_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x2048 := Rect.unit (s := S1024x2048) ![0, 0] S1024x2048.size inb_S1024x2048_S1024x2048_0_0
abbrev r1_1 : Rect S1792x2048 := Rect.unit (s := S1792x2048) ![0, 0] S1792x2048.size inb_S1792x2048_S1792x2048_0_0
abbrev r1_2 : Rect S1024x1792 := Rect.unit (s := S1024x1792) ![0, 0] S1024x1792.size inb_S1024x1792_S1024x1792_0_0

/-- The output buffer after the body, from the two input blocks: its one store. -/
def out1_2 (x0 : Vec F S1024x2048 .bf16) (x1 : Vec F S1792x2048 .bf16) : Vec F S1024x1792 .f32 :=
  View.canon [⟨r1_2, k1_pay1 (View.ld x0 r1_0) (View.ld x1 r1_1)⟩]

/-- The one store covers the buffer. -/
theorem cover1_2 (p0 : Vec F S1024x1792 .f32) (y : S1024x1792.Idx) :
    ∃ pc ∈ ([⟨r1_2, p0⟩] : List (View.Piece (Elt F) S1024x1792 .f32)), y ∈ pc.1.set :=
  View.cover_of_tiled [⟨r1_2, p0⟩] S1024x1792.size (by rfl) y

set_option maxHeartbeats 1000000 in
/-- The body on whole staging memrefs, the inputs at contents x0, x1 and the output at anything, runs to the continuation
    holding the inputs as they were and the output at the product block. -/
theorem sound_kernel1 (c : Dev nD) (E : Set ℕ) (i : grid1.Coords) (arg2 : Memref sig .tc .vmem S1024x2048 .bf16) (harg2 : arg2.IsWhole) (arg3 : Memref sig .tc .vmem S1792x2048 .bf16) (harg3 : arg3.IsWhole) (arg4 : Memref sig .tc .vmem S1024x1792 .f32) (harg4 : arg4.IsWhole)
    (x0 : Vec F S1024x2048 .bf16) (x1 : Vec F S1792x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__down_proj_kernel i arg2 harg2 arg3 harg3 arg4 harg4) K := by
  simp only [cc1__down_proj_kernel_eq_skeleton]; unfold cc1__down_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second call on core c: the arrays as the call finds them; after the body at point t each
    input's buffer at its block and the output's at the product of the two blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.Main.lean ====
/-
  The whole run of the program: five host operations (three changes of float format and two row slices), then the two
  pallas_calls. The contents of the unscoped buffers at each boundary are a fold from the launch memory: after the host
  operations; after the first call (its arrays at what its write-backs leave, every other buffer as entered); after the
  second call likewise. Every weakly fair execution terminates, and every final state holds each unscoped buffer at the
  last boundary's contents — in particular the three arguments as launched, and the result at what the second call's
  write-backs leave.
-/
import proofs.«156917_j13950053777725_2_alg».proof.Proof.KI.Reg0
import proofs.«156917_j13950053777725_2_alg».proof.Proof.KI.Reg1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit (the second call's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one and neither call stages one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- Call 0 as a segment over the thread state "every unscoped buffer at the boundary's contents, the generator register
    at some state, nothing owed": its arrays split out of the unscoped buffers at entry and put back at the exit contents;
    the generator register into the call's invariant and out; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment over the thread state "every unscoped buffer at the boundary's contents, the generator register
    at some state, nothing owed": its arrays split out of the unscoped buffers at entry and put back at the exit contents;
    the generator register into the call's invariant and out; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution terminates, nothing faulting, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same run with the result named: the result buffer ends at what the second call's write-backs leave. -/
theorem run_result : θ_run defs (onTc (τ := τ) (main (F := F))) ⟨m, fun _ => 0, ρ⟩ (fun r => ∀ c : Dev nD,
      r.2.mem ((c.tc : Thread nD τ).loc main_v6) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Fr

end
-- ==== Proof.Spec.lean ====
/-
  The function both programs compute, entry by entry, on the extended reals.

  With x : [4096, 7168], w : [4096, 7168] (its first 2048 rows the gate weights, its last 2048 rows the up weights) and
  d : [7168, 2048]:

      up x w r c   = sum over k < 7168 of  x (r, k) * w (c, k)                (entry (r, c) of x times the transpose of w)
      hid x w r e  = (g * logistic g) * u,   g = up x w r e,  u = up x w r (2048 + e)      (SwiGLU: silu of the gate times the up value)
      out x w d (r, n) = sum over e < 2048 of  hid x w r e * d (n, e)          (the hidden row times the transpose of d)

  Sums and products are those of the extended reals; nothing is assumed finite.
-/
import Idealize.ShloMosaic.PureOps.Ideal
import Idealize.ShloMosaic.Lib.ValueIdx

noncomputable section

namespace Swiglu

open Idealize.ShloMosaic Idealize.ShloMosaic.ValueIdx
open scoped BigOperators

/-- Entry (r, c) of x times the transpose of w. -/
def up (x w : (⟨2, ![4096, 7168]⟩ : Shape).Idx → EReal) (r : Fin 4096) (c : Fin 4096) : EReal :=
  ∑ k : Fin 7168, x (ix2 r k) * w (ix2 c k)

/-- The gate row index e among the 4096 rows of w. -/
def gateRow (e : Fin 2048) : Fin 4096 := ⟨e.val, by omega⟩
/-- The up row index 2048 + e among the 4096 rows of w. -/
def upRow (e : Fin 2048) : Fin 4096 := ⟨2048 + e.val, by omega⟩

/-- silu of a value: the value times its logistic. -/
def silu (g : EReal) : EReal := g * Ideal.logistic g

/-- The hidden activation at (r, e): silu of the gate entry times the up entry. -/
def hid (x w : (⟨2, ![4096, 7168]⟩ : Shape).Idx → EReal) (r : Fin 4096) (e : Fin 2048) : EReal :=
  silu (up x w r (gateRow e)) * up x w r (upRow e)

/-- The result at (r, n): the hidden row r against row n of d. -/
def out (x w : (⟨2, ![4096, 7168]⟩ : Shape).Idx → EReal) (d : (⟨2, ![7168, 2048]⟩ : Shape).Idx → EReal) :
    (⟨2, ![4096, 7168]⟩ : Shape).Idx → EReal :=
  fun i => ∑ e : Fin 2048, hid x w (i 0) e * d (ix2 (i 1) e)

end Swiglu

end
-- ==== Proof.KI.AccumDefs.lean ====
/-
  The first pallas_call's value, the vocabulary. At grid position n (row-major in (i, j, k), 4 x 2 x 14) the x block's row
  p is row 1024 * (n / 28) + p of the x array, and the weight blocks' row q is row 1024 * ((n / 14) % 2) + q of the gate
  (or up) weights. The call is read under three facts about what it finds in its input arrays: the x array holds x, the
  gate-weights array the first 2048 rows of w, the up-weights array the last 2048 rows of w.
-/
import proofs.«156917_j13950053777725_2_alg».proof.Proof.KI.Reg0
import proofs.«156917_j13950053777725_2_alg».proof.Proof.Spec
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem

/-- The x array's row behind row p of the x block at position n (reduced modulo the extent, so that it is a row for every n). -/
def rowOf (n : ℕ) (p : Fin 1024) : Fin 4096 := ⟨(1024 * (n / 28) + p.val) % 4096, Nat.mod_lt _ (by decide)⟩
/-- The weights' row (among the 2048 gate rows, or the 2048 up rows) behind row q of the weight blocks at position n. -/
def colOf (n : ℕ) (q : Fin 1024) : Fin 2048 := ⟨(1024 * ((n / 14) % 2) + q.val) % 2048, Nat.mod_lt _ (by decide)⟩

/-- What the call finds in its three input arrays. -/
structure Entry (V : (c : Dev nD) → (b : Ref sig .tc) → Buf (Elt Ideal) ((c : Thread nD τ).loc b)) (c : Dev nD)
    (x w : (⟨2, ![4096, 7168]⟩ : Shape).Idx → EReal) : Prop where
  hx : ∀ (r : Fin 4096) (k : Fin 7168), (V c main_v0 : S4096x7168.Idx → EReal) (ix2 r k) = x (ix2 r k)
  hg : ∀ (e : Fin 2048) (k : Fin 7168), (V c main_v2 : S2048x7168.Idx → EReal) (ix2 e k) = w (ix2 (Swiglu.gateRow e) k)
  hu : ∀ (e : Fin 2048) (k : Fin 7168), (V c main_v3 : S2048x7168.Idx → EReal) (ix2 e k) = w (ix2 (Swiglu.upRow e) k)

end Cert.KernelIdeal.Val

end
-- ==== Proof.KI.Pieces.lean ====
/-
  What each case of the first pallas_call's body leaves, as the body's arithmetic of what it read: after a point the gate
  accumulator holds (what it held, or zero when k = 0) plus the block product of the x block with the gate-weights block,
  the up accumulator likewise with the up-weights block, and at k = 13 the hidden block's buffer holds silu of the gate
  accumulator times the up accumulator, both as just updated.
-/
import proofs.«156917_j13950053777725_2_alg».proof.Proof.KI.Reg0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem hz : (![0, 0] : Fin 2 → Nat) = fun _ => 0 := funext fun a => by fin_cases a <;> rfl

theorem sout0_A_0_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) :
    sout0_A_0 c i arg3 harg3 arg4 harg4 arg5 harg5 arg6 harg6 arg7 harg7 arg8 harg8 hc0 hc1 x0 x1 x2 = k0_pay3 k0_pay1 x0 x1 := by
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A; dsimp only; sl_unfold_words
  rw [View.canon_cons_unit_zero hz, View.readCov_unit_zero (S := S1024x1024) _ hz]
  simp only [View.readAt_eq_ld, harg3.read_unread, harg4.read_unread, harg5.read_unread, harg7.read_unread, harg8.read_unread, View.ld_unit_zero (S := S1024x512) hz, View.ld_unit_zero (S := S1024x1024) hz]

theorem sout0_A_1_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 x1 x2 : Vec F S1024x512 .bf16) :
    sout0_A_1 c i arg3 harg3 arg4 harg4 arg5 harg5 arg6 harg6 arg7 harg7 arg8 harg8 hc0 hc1 x0 x1 x2 = k0_pay4 k0_pay2 x0 x2 := by
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A; dsimp only; sl_unfold_words
  rw [View.canon_cons_unit_zero hz, View.readCov_unit_zero (S := S1024x1024) _ hz]
  simp only [View.readAt_eq_ld, harg3.read_unread, harg4.read_unread, harg5.read_unread, harg7.read_unread, harg8.read_unread, View.ld_unit_zero (S := S1024x512) hz, View.ld_unit_zero (S := S1024x1024) hz]

theorem sout0_B_0_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) :
    sout0_B_0 c i arg3 harg3 arg4 harg4 arg5 harg5 arg6 harg6 arg7 harg7 arg8 harg8 hc0 hc1 x0 x1 x2 xs0 xs1 = k0_pay3 xs0 x0 x1 := by
  unfold sout0_B_0
  rw [View.read_writes_eq_canon _ _ _ (scover0_B_0 c i arg3 harg3 arg4 harg4 arg5 harg5 arg6 harg6 arg7 harg7 arg8 harg8 hc0 hc1 x0 x1 x2 xs0 xs1)]
  unfold kernelRun0_B; dsimp only; sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1024x1024) hz]

theorem sout0_B_1_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 x1 x2 : Vec F S1024x512 .bf16) (xs0 xs1 : Vec F S1024x1024 .f32) :
    sout0_B_1 c i arg3 harg3 arg4 harg4 arg5 harg5 arg6 harg6 arg7 harg7 arg8 harg8 hc0 hc1 x0 x1 x2 xs0 xs1 = k0_pay4 xs1 x0 x2 := by
  unfold sout0_B_1
  rw [View.read_writes_eq_canon _ _ _ (scover0_B_1 c i arg3 harg3 arg4 harg4 arg5 harg5 arg6 harg6 arg7 harg7 arg8 harg8 hc0 hc1 x0 x1 x2 xs0 xs1)]
  unfold kernelRun0_B; dsimp only; sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1024x1024) hz]

theorem sout0_C_0_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) :
    sout0_C_0 c i arg3 harg3 arg4 harg4 arg5 harg5 arg6 harg6 arg7 harg7 arg8 harg8 hc0 hc1 x0 x1 x2 xs0 xs1 = k0_pay3 xs0 x0 x1 := by
  unfold sout0_C_0
  rw [View.read_writes_eq_canon _ _ _ (scover0_C_0 c i arg3 harg3 arg4 harg4 arg5 harg5 arg6 harg6 arg7 harg7 arg8 harg8 hc0 hc1 x0 x1 x2 xs0 xs1)]
  unfold kernelRun0_C; dsimp only; sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1024x1024) hz]

theorem sout0_C_1_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) :
    sout0_C_1 c i arg3 harg3 arg4 harg4 arg5 harg5 arg6 harg6 arg7 harg7 arg8 harg8 hc0 hc1 x0 x1 x2 xs0 xs1 = k0_pay4 xs1 x0 x2 := by
  unfold sout0_C_1
  rw [View.read_writes_eq_canon _ _ _ (scover0_C_1 c i arg3 harg3 arg4 harg4 arg5 harg5 arg6 harg6 arg7 harg7 arg8 harg8 hc0 hc1 x0 x1 x2 xs0 xs1)]
  unfold kernelRun0_C; dsimp only; sl_unfold_words
  rw [View.canon_unit_zero hz]
  simp only [View.readAt_eq_ld, harg3.read_unread, harg4.read_unread, harg5.read_unread, harg7.read_unread, harg8.read_unread, View.ld_unit_zero (S := S1024x512) hz, View.ld_unit_zero (S := S1024x1024) hz]

theorem out0_C_3_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 x1 x2 : Vec F S1024x512 .bf16) (xs0 xs1 : Vec F S1024x1024 .f32) :
    out0_C_3 c i arg3 harg3 arg4 harg4 arg5 harg5 arg6 harg6 arg7 harg7 arg8 harg8 hc0 hc1 x0 x1 x2 xs0 xs1 = k0_pay5 (k0_pay3 xs0 x0 x1) (k0_pay4 xs1 x0 x2) := by
  unfold out0_C_3
  rw [View.read_writes_eq_canon _ _ _ (cover0_C_3 c i arg3 harg3 arg4 harg4 arg5 harg5 arg6 harg6 arg7 harg7 arg8 harg8 hc0 hc1 x0 x1 x2 xs0 xs1)]
  unfold kernelRun0_C; dsimp only; sl_unfold_words
  rw [View.canon_unit_zero hz, View.readCov_unit_zero (S := S1024x1024) _ hz, View.readCov_unit_zero (S := S1024x1024) _ hz]
  simp only [View.readAt_eq_ld, harg3.read_unread, harg4.read_unread, harg5.read_unread, harg7.read_unread, harg8.read_unread, View.ld_unit_zero (S := S1024x512) hz, View.ld_unit_zero (S := S1024x1024) hz]

end Cert.KernelIdeal.Fr

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.KI.Payloads.lean ====
/-
  The two kernels' arithmetic, read entry by entry on the extended reals: the two zero fills, the two
  accumulation steps (the old entry plus a sum of 512 products along two rows), the final step (silu of
  the gate entry times the up entry), and the second kernel's product (a sum of 2048 products along two rows).
-/
import proofs.«156917_j13950053777725_2_alg».proof.Proof.Gen.KernelIdeal.Skeleton
import proofs.«156917_j13950053777725_2_alg».proof.Proof.Spec
import proofs.«156917_j13950053777725_2_alg».proof.Proof.LibDotRows
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- The first zero fill: every entry is the value of the word 0x00000000, which is 0. -/
theorem pay1_apply (p q : Fin 1024) : k0_pay1 (F := Ideal) (ix2 p q) = (0 : EReal) := by
  unfold k0_pay1
  refine (congrFun (shapeCast_self _ _) (ix2 p q)).trans ?_
  exact Ideal.ofBits_zero_f32

/-- The second zero fill: every entry is the value of the word 0x00000000, which is 0. -/
theorem pay2_apply (p q : Fin 1024) : k0_pay2 (F := Ideal) (ix2 p q) = (0 : EReal) := by
  unfold k0_pay2
  refine (congrFun (shapeCast_self _ _) (ix2 p q)).trans ?_
  exact Ideal.ofBits_zero_f32

/-- A block of 1024 rows of 512 against a block of 1024 rows of 512, multiplied into the zero accumulator: entry (p, q)
    is the sum over k < 512 of l (p, k) * r (q, k). -/
theorem block_prod (l r : FVec Ideal S1024x512 .bf16) (p q : Fin 1024) :
    matmul (F := Ideal) dot_S1024x512_S1024x512_S1024x1024_1_1_0_0_n_n none l r
        (constant (F := Ideal) S1024x1024 .f32 0x00000000#32) (ix2 p q)
      = ∑ k : Fin 512, (l (ix2 p k) : EReal) * r (ix2 q k) :=
  DotRows.matmul_zero_apply 1024 512 1024 none l r (ix2 p q)

/-- The gate accumulation step: the new entry (p, q) is the old entry plus the sum over k < 512 of x0 (p, k) * x1 (q, k). -/
theorem pay3_apply (s : Vec Ideal S1024x1024 .f32) (x0 x1 : Vec Ideal S1024x512 .bf16) (p q : Fin 1024) :
    k0_pay3 s x0 x1 (ix2 p q) = s (ix2 p q) + ∑ k : Fin 512, x0 (ix2 p k) * x1 (ix2 q k) := by
  unfold k0_pay3
  refine (congrFun (shapeCast_self _ _) (ix2 p q)).trans ?_
  refine (addf_apply _ _ (ix2 p q)).trans ?_
  refine congrArg (s (ix2 p q) + ·) ?_
  rw [shapeCast_self x0, shapeCast_self x1]
  exact block_prod x0 x1 p q

/-- The up accumulation step: the new entry (p, q) is the old entry plus the sum over k < 512 of x0 (p, k) * x2 (q, k). -/
theorem pay4_apply (s : Vec Ideal S1024x1024 .f32) (x0 x2 : Vec Ideal S1024x512 .bf16) (p q : Fin 1024) :
    k0_pay4 s x0 x2 (ix2 p q) = s (ix2 p q) + ∑ k : Fin 512, x0 (ix2 p k) * x2 (ix2 q k) := by
  unfold k0_pay4
  refine (congrFun (shapeCast_self _ _) (ix2 p q)).trans ?_
  refine (addf_apply _ _ (ix2 p q)).trans ?_
  refine congrArg (s (ix2 p q) + ·) ?_
  rw [shapeCast_self x0, shapeCast_self x2]
  exact block_prod x0 x2 p q

/-- The final step: entry (p, q) is the gate entry times its logistic, times the up entry; the change of format is the
    identity on extended reals. -/
theorem pay5_apply (g u : Vec Ideal S1024x1024 .f32) (p q : Fin 1024) :
    k0_pay5 g u (ix2 p q) = Swiglu.silu (g (ix2 p q)) * u (ix2 p q) := by
  unfold k0_pay5
  rfl

/-- The second kernel's product: entry (p, n) is the sum over e < 2048 of h (p, e) * w (n, e). -/
theorem down_apply (h : Vec Ideal S1024x2048 .bf16) (w : Vec Ideal S1792x2048 .bf16) (p : Fin 1024) (n : Fin 1792) :
    k1_pay1 h w (ix2 p n) = ∑ e : Fin 2048, h (ix2 p e) * w (ix2 n e) := by
  unfold k1_pay1
  rw [shapeCast_self h, shapeCast_self w]
  exact DotRows.matmul_zero_apply 1024 2048 1792 none h w (ix2 p n)

end Cert.KernelIdeal.Pay

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.BlockSums.lean ====
/-
  The contraction over 7168 positions read as 14 blocks of 512 consecutive positions, and a running total
  started at zero read as a finite sum: the two facts that turn an accumulation over a grid of 14 steps into
  the single sum `Swiglu.up`.
-/
import proofs.«156917_j13950053777725_2_alg».proof.Proof.Spec
import proofs.«156917_j13950053777725_2_alg».proof.Proof.LibBlockSum

noncomputable section

namespace Swiglu

open Idealize.ShloMosaic Idealize.ShloMosaic.ValueIdx
open scoped BigOperators

/-- The k-th term x (r, k) * w (c, k) of the contraction, as a function of a natural number k (zero past 7168). -/
def term (x w : (⟨2, ![4096, 7168]⟩ : Shape).Idx → EReal) (r c : Fin 4096) (k : ℕ) : EReal :=
  if h : k < 7168 then x (ix2 r ⟨k, h⟩) * w (ix2 c ⟨k, h⟩) else 0

/-- Block t of 512 consecutive terms: the sum over s < 512 of the term at position 512 * t + s. -/
def blockSum (x w : (⟨2, ![4096, 7168]⟩ : Shape).Idx → EReal) (r c : Fin 4096) (t : ℕ) : EReal :=
  ∑ s : Fin 512, term x w r c (512 * t + s.val)

/-- At a position k < 7168 the term is the product x (r, k) * w (c, k). -/
theorem term_fin (x w : (⟨2, ![4096, 7168]⟩ : Shape).Idx → EReal) (r c : Fin 4096) (k : Fin 7168) :
    term x w r c k.val = x (ix2 r k) * w (ix2 c k) := by
  unfold term
  rw [dif_pos k.isLt]

/-- Since 7168 = 14 * 512, the sum over k < 7168 of x (r, k) * w (c, k) is the sum of its 14 blocks of 512 terms. -/
theorem up_eq_blocks (x w : (⟨2, ![4096, 7168]⟩ : Shape).Idx → EReal) (r c : Fin 4096) :
    up x w r c = ∑ t ∈ Finset.range 14, blockSum x w r c t := by
  have h : ∑ k : Fin 7168, term x w r c k.val
      = ∑ t ∈ Finset.range 14, ∑ s : Fin 512, term x w r c (512 * t + s.val) :=
    AnchorGcn.sum_fin_blocks (term x w r c) 14 512
  unfold up blockSum
  rw [← h]
  exact Finset.sum_congr rfl fun k _ => (term_fin x w r c k).symm

/-- A running total started at zero: A 0 = 0 + S 0 and A (k + 1) = A k + S (k + 1) give A k = the sum over t ≤ k of S t,
    by induction on k. -/
theorem running_total (A S : ℕ → EReal) (h0 : A 0 = 0 + S 0) (hs : ∀ k, A (k + 1) = A k + S (k + 1)) (k : ℕ) :
    A k = ∑ t ∈ Finset.range (k + 1), S t := by
  induction k with
  | zero => rw [h0, zero_add, Finset.sum_range_one]
  | succ k ih => rw [hs k, ih]; exact (Finset.sum_range_succ S (k + 1)).symm

end Swiglu

end
-- ==== Proof.KI.Accum.lean ====
/-
  The first pallas_call's accumulators, position by position, on the extended reals.

  At position n = 28 i + 14 j + k the gate accumulator's entry (p, q) holds the sum of the first k + 1 blocks (of 512
  terms each) of the contraction of row 1024 i + p of x with gate row 1024 j + q of w, and the up accumulator the same
  with the up row: at k = 0 the body adds the first block to zero, at each later k it adds block k to what position n - 1
  left, and positions n - 1 and n share i and j when k > 0. At k = 13 all 14 blocks are in, the sums are the full
  contractions, and the stored block is silu of the gate entry times the up entry: the hidden activation. Only
  commutativity and associativity of the extended reals' addition are used; nothing is assumed finite.
-/
import proofs.«156917_j13950053777725_2_alg».proof.Proof.KI.AccumDefs
import proofs.«156917_j13950053777725_2_alg».proof.Proof.KI.Pieces
import proofs.«156917_j13950053777725_2_alg».proof.Proof.KI.Payloads
import proofs.«156917_j13950053777725_2_alg».proof.Proof.BlockSums
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay Idealize.ShloMosaic Idealize.ShloMosaic.ValueIdx
open Idealize.ShloMosaic.TcCoe Idealize.SL.Sem
open Idealize.ShloMosaic.Pipeline (Dat)
open scoped BigOperators

/-- The input windows' block indices at point t, decided over the 112 points: the x block sits at (t / 28, t % 14), the two
    weight blocks at ((t / 14) % 2, t % 14). -/
theorem idx_facts0 : ∀ t : Fin cfg0.N,
    win0_0.index t (0 : Fin 2) = t.val / 28
    ∧ win0_0.index t (1 : Fin 2) = t.val % 14
    ∧ win0_1.index t (0 : Fin 2) = (t.val / 14) % 2
    ∧ win0_1.index t (1 : Fin 2) = t.val % 14
    ∧ win0_2.index t (0 : Fin 2) = (t.val / 14) % 2
    ∧ win0_2.index t (1 : Fin 2) = t.val % 14 :=
  (by decide +kernel : ∀ t : Fin grid0.N, _)

section
variable (V : (c : Dev nD) → (b : Ref sig .tc) → Buf (Elt Ideal) ((c : Thread nD τ).loc b)) (c : Dev nD)
variable (x w : (⟨2, ![4096, 7168]⟩ : Shape).Idx → EReal)

/-- The x block at point t, read at (p, s), is the x array at (1024 * block row + p, 512 * block column + s). -/
theorem x_block (t : Fin cfg0.N) (y : S1024x512.Idx) (k : S4096x7168.Idx)
    (hk0 : (k 0).val = win0_0.index t (0 : Fin 2) * 1024 + (y 0).val)
    (hk1 : (k 1).val = win0_0.index t (1 : Fin 2) * 512 + (y 1).val) :
    (iblk0 V c 0 t : Vec Ideal S1024x512 .bf16) y = (V c main_v0 : S4096x7168.Idx → EReal) k := by
  unfold iblk0
  rw [View.read_apply]
  show (V c main_v0 : S4096x7168.Idx → EReal) _ = V c main_v0 k
  congr 1
  funext a; apply Fin.ext
  match a with
  | ⟨0, _⟩ => show win0_0.index t (0 : Fin 2) * 1024 + 1 * (y 0).val = (k 0).val; omega
  | ⟨1, _⟩ => show win0_0.index t (1 : Fin 2) * 512 + 1 * (y 1).val = (k 1).val; omega

/-- The gate-weights block at point t, read at (q, s), is the gate-weights array at (1024 * block row + q, 512 * block column + s). -/
theorem g_block (t : Fin cfg0.N) (y : S1024x512.Idx) (k : S2048x7168.Idx)
    (hk0 : (k 0).val = win0_1.index t (0 : Fin 2) * 1024 + (y 0).val)
    (hk1 : (k 1).val = win0_1.index t (1 : Fin 2) * 512 + (y 1).val) :
    (iblk0 V c 1 t : Vec Ideal S1024x512 .bf16) y = (V c main_v2 : S2048x7168.Idx → EReal) k := by
  unfold iblk0
  rw [View.read_apply]
  show (V c main_v2 : S2048x7168.Idx → EReal) _ = V c main_v2 k
  congr 1
  funext a; apply Fin.ext
  match a with
  | ⟨0, _⟩ => show win0_1.index t (0 : Fin 2) * 1024 + 1 * (y 0).val = (k 0).val; omega
  | ⟨1, _⟩ => show win0_1.index t (1 : Fin 2) * 512 + 1 * (y 1).val = (k 1).val; omega

/-- The up-weights block at point t, read at (q, s), is the up-weights array at (1024 * block row + q, 512 * block column + s). -/
theorem u_block (t : Fin cfg0.N) (y : S1024x512.Idx) (k : S2048x7168.Idx)
    (hk0 : (k 0).val = win0_2.index t (0 : Fin 2) * 1024 + (y 0).val)
    (hk1 : (k 1).val = win0_2.index t (1 : Fin 2) * 512 + (y 1).val) :
    (iblk0 V c 2 t : Vec Ideal S1024x512 .bf16) y = (V c main_v3 : S2048x7168.Idx → EReal) k := by
  unfold iblk0
  rw [View.read_apply]
  show (V c main_v3 : S2048x7168.Idx → EReal) _ = V c main_v3 k
  congr 1
  funext a; apply Fin.ext
  match a with
  | ⟨0, _⟩ => show win0_2.index t (0 : Fin 2) * 1024 + 1 * (y 0).val = (k 0).val; omega
  | ⟨1, _⟩ => show win0_2.index t (1 : Fin 2) * 512 + 1 * (y 1).val = (k 1).val; omega

/-- One product of the block product at point t: the x block's (p, s) times the gate block's (q, s) is term 512 k + s of the contraction of x's row with w's gate row. -/
theorem gate_term (hE : Entry V c x w) (t : Fin cfg0.N) (x0 x1 : Vec Ideal S1024x512 .bf16)
    (hx0 : x0 = iblk0 V c 0 t) (hx1 : x1 = iblk0 V c 1 t) (p q : Fin 1024) (s : Fin 512) :
    x0 (ix2 p s) * x1 (ix2 q s)
      = Swiglu.term x w (rowOf t.val p) (Swiglu.gateRow (colOf t.val q)) (512 * (t.val % 14) + s.val) := by
  subst hx0 hx1
  obtain ⟨e0, e1, e2, e3, e4, e5⟩ := idx_facts0 t
  have hN : t.val < 112 := lt_of_lt_of_eq t.isLt (show cfg0.N = 112 from N_0)
  have hs : s.val < 512 := s.isLt
  have hp : p.val < 1024 := p.isLt
  have hq : q.val < 1024 := q.isLt
  have hk : 512 * (t.val % 14) + s.val < 7168 := by omega
  have hx := x_block V c t (ix2 p s) (ix2 (rowOf t.val p) (⟨512 * (t.val % 14) + s.val, hk⟩ : Fin 7168))
    (by show (1024 * (t.val / 28) + p.val) % 4096 = win0_0.index t (0 : Fin 2) * 1024 + p.val; rw [e0]; omega)
    (by show 512 * (t.val % 14) + s.val = win0_0.index t (1 : Fin 2) * 512 + s.val; rw [e1]; omega)
  have hw := g_block V c t (ix2 q s) (ix2 (colOf t.val q) (⟨512 * (t.val % 14) + s.val, hk⟩ : Fin 7168))
    (by show (1024 * ((t.val / 14) % 2) + q.val) % 2048 = win0_1.index t (0 : Fin 2) * 1024 + q.val; rw [e2]; omega)
    (by show 512 * (t.val % 14) + s.val = win0_1.index t (1 : Fin 2) * 512 + s.val; rw [e3]; omega)
  rw [hx, hw, hE.hx, hE.hg]
  unfold Swiglu.term
  rw [dif_pos hk]

/-- The same for the up block: term 512 k + s of the contraction of x's row with w's up row. -/
theorem up_term (hE : Entry V c x w) (t : Fin cfg0.N) (x0 x1 : Vec Ideal S1024x512 .bf16)
    (hx0 : x0 = iblk0 V c 0 t) (hx1 : x1 = iblk0 V c 2 t) (p q : Fin 1024) (s : Fin 512) :
    x0 (ix2 p s) * x1 (ix2 q s)
      = Swiglu.term x w (rowOf t.val p) (Swiglu.upRow (colOf t.val q)) (512 * (t.val % 14) + s.val) := by
  subst hx0 hx1
  obtain ⟨e0, e1, e2, e3, e4, e5⟩ := idx_facts0 t
  have hN : t.val < 112 := lt_of_lt_of_eq t.isLt (show cfg0.N = 112 from N_0)
  have hs : s.val < 512 := s.isLt
  have hp : p.val < 1024 := p.isLt
  have hq : q.val < 1024 := q.isLt
  have hk : 512 * (t.val % 14) + s.val < 7168 := by omega
  have hx := x_block V c t (ix2 p s) (ix2 (rowOf t.val p) (⟨512 * (t.val % 14) + s.val, hk⟩ : Fin 7168))
    (by show (1024 * (t.val / 28) + p.val) % 4096 = win0_0.index t (0 : Fin 2) * 1024 + p.val; rw [e0]; omega)
    (by show 512 * (t.val % 14) + s.val = win0_0.index t (1 : Fin 2) * 512 + s.val; rw [e1]; omega)
  have hw := u_block V c t (ix2 q s) (ix2 (colOf t.val q) (⟨512 * (t.val % 14) + s.val, hk⟩ : Fin 7168))
    (by show (1024 * ((t.val / 14) % 2) + q.val) % 2048 = win0_2.index t (0 : Fin 2) * 1024 + q.val; rw [e4]; omega)
    (by show 512 * (t.val % 14) + s.val = win0_2.index t (1 : Fin 2) * 512 + s.val; rw [e5]; omega)
  rw [hx, hw, hE.hx, hE.hu]
  unfold Swiglu.term
  rw [dif_pos hk]

/-- The block product's entry (p, q) at point t is block k = t % 14 of the contraction. -/
theorem gate_block (hE : Entry V c x w) (t : Fin cfg0.N) (x0 x1 : Vec Ideal S1024x512 .bf16)
    (hx0 : x0 = iblk0 V c 0 t) (hx1 : x1 = iblk0 V c 1 t) (p q : Fin 1024) :
    ∑ s : Fin 512, x0 (ix2 p s) * x1 (ix2 q s)
      = Swiglu.blockSum x w (rowOf t.val p) (Swiglu.gateRow (colOf t.val q)) (t.val % 14) := by
  unfold Swiglu.blockSum
  exact Finset.sum_congr rfl fun s _ => gate_term V c x w hE t x0 x1 hx0 hx1 p q s

theorem up_block (hE : Entry V c x w) (t : Fin cfg0.N) (x0 x1 : Vec Ideal S1024x512 .bf16)
    (hx0 : x0 = iblk0 V c 0 t) (hx1 : x1 = iblk0 V c 2 t) (p q : Fin 1024) :
    ∑ s : Fin 512, x0 (ix2 p s) * x1 (ix2 q s)
      = Swiglu.blockSum x w (rowOf t.val p) (Swiglu.upRow (colOf t.val q)) (t.val % 14) := by
  unfold Swiglu.blockSum
  exact Finset.sum_congr rfl fun s _ => up_term V c x w hE t x0 x1 hx0 hx1 p q s

/-- Positions n and n + 1 share their row and column blocks when n + 1 does not start a run of 14. -/
theorem rowOf_pred (m : ℕ) (h : (m + 1) % 14 ≠ 0) (p : Fin 1024) : rowOf m p = rowOf (m + 1) p := by
  apply Fin.ext
  show (1024 * (m / 28) + p.val) % 4096 = (1024 * ((m + 1) / 28) + p.val) % 4096
  have : m / 28 = (m + 1) / 28 := by omega
  rw [this]
theorem colOf_pred (m : ℕ) (h : (m + 1) % 14 ≠ 0) (q : Fin 1024) : colOf m q = colOf (m + 1) q := by
  apply Fin.ext
  show (1024 * ((m / 14) % 2) + q.val) % 2048 = (1024 * (((m + 1) / 14) % 2) + q.val) % 2048
  have : m / 14 = (m + 1) / 14 := by omega
  rw [this]

/-- THE INVARIANT: after position n the two accumulators' entries (p, q) are the sums of the first n % 14 + 1 blocks. -/
theorem acc_inv (hE : Entry V c x w) : ∀ (n : ℕ) (hn : n < cfg0.N) (p q : Fin 1024),
    ((outsAt0 V c n hn).2.1 : Vec Ideal S1024x1024 .f32) (ix2 p q)
        = ∑ k' ∈ Finset.range (n % 14 + 1), Swiglu.blockSum x w (rowOf n p) (Swiglu.gateRow (colOf n q)) k'
    ∧ ((outsAt0 V c n hn).2.2 : Vec Ideal S1024x1024 .f32) (ix2 p q)
        = ∑ k' ∈ Finset.range (n % 14 + 1), Swiglu.blockSum x w (rowOf n p) (Swiglu.upRow (colOf n q)) k' := by
  intro n
  induction n with
  | zero =>
    intro hn p q
    rw [show outsAt0 V c 0 hn = _ from outsAt0_A V c ⟨0, hn⟩ (Nat.zero_mod _) (fun h => by dsimp only at h; omega)]
    dsimp only
    rw [sout0_A_0_eq, sout0_A_1_eq]
    refine ⟨(pay3_apply _ _ _ p q).trans ?_, (pay4_apply _ _ _ p q).trans ?_⟩
    · rw [pay1_apply, zero_add, gate_block V c x w hE ⟨0, hn⟩ _ _ rfl rfl p q]
      simp only [Nat.zero_mod, zero_add, Finset.sum_range_one]
    · rw [pay2_apply, zero_add, up_block V c x w hE ⟨0, hn⟩ _ _ rfl rfl p q]
      simp only [Nat.zero_mod, zero_add, Finset.sum_range_one]
  | succ m ih =>
    intro hn p q
    have hm : m < cfg0.N := Nat.lt_of_succ_lt hn
    by_cases h0 : (m + 1) % 14 = 0
    · have h1 : ¬(m + 1) % 14 = 13 := by omega
      rw [show outsAt0 V c (m + 1) hn = _ from outsAt0_A V c ⟨m + 1, hn⟩ h0 h1]
      dsimp only
      rw [sout0_A_0_eq, sout0_A_1_eq]
      refine ⟨(pay3_apply _ _ _ p q).trans ?_, (pay4_apply _ _ _ p q).trans ?_⟩
      · rw [pay1_apply, zero_add, gate_block V c x w hE ⟨m + 1, hn⟩ _ _ rfl rfl p q]
        simp only [h0, zero_add, Finset.sum_range_one]
      · rw [pay2_apply, zero_add, up_block V c x w hE ⟨m + 1, hn⟩ _ _ rfl rfl p q]
        simp only [h0, zero_add, Finset.sum_range_one]
    · have hk : m % 14 + 1 = (m + 1) % 14 := by omega
      obtain ⟨ihg, ihu⟩ := ih hm p q
      rw [rowOf_pred m h0 p, colOf_pred m h0 q, hk] at ihg ihu
      by_cases h1 : (m + 1) % 14 = 13
      · rw [show outsAt0 V c (m + 1) hn = _ from outsAt0_C V c ⟨m + 1, hn⟩ h0 h1]
        dsimp only
        rw [sout0_C_0_eq, sout0_C_1_eq]
        refine ⟨(pay3_apply _ _ _ p q).trans ?_, (pay4_apply _ _ _ p q).trans ?_⟩
        · rw [Finset.sum_range_succ]
          exact congrArg₂ (· + ·) ihg (gate_block V c x w hE ⟨m + 1, hn⟩ _ _ rfl rfl p q)
        · rw [Finset.sum_range_succ]
          exact congrArg₂ (· + ·) ihu (up_block V c x w hE ⟨m + 1, hn⟩ _ _ rfl rfl p q)
      · rw [show outsAt0 V c (m + 1) hn = _ from outsAt0_B V c ⟨m + 1, hn⟩ h0 h1]
        dsimp only
        rw [sout0_B_0_eq, sout0_B_1_eq]
        refine ⟨(pay3_apply _ _ _ p q).trans ?_, (pay4_apply _ _ _ p q).trans ?_⟩
        · rw [Finset.sum_range_succ]
          exact congrArg₂ (· + ·) ihg (gate_block V c x w hE ⟨m + 1, hn⟩ _ _ rfl rfl p q)
        · rw [Finset.sum_range_succ]
          exact congrArg₂ (· + ·) ihu (up_block V c x w hE ⟨m + 1, hn⟩ _ _ rfl rfl p q)

/-- THE HIDDEN BLOCK: at a point with k = 13 the stored block's entry (p, q) is the hidden activation at the x row and the
    weight row behind (p, q). -/
theorem hidden_block (hE : Entry V c x w) (t : Fin cfg0.N) (h13 : t.val % 14 = 13) (p q : Fin 1024) :
    ((outsAt0 V c t.val t.isLt).1 : Vec Ideal S1024x1024 .bf16) (ix2 p q) = Swiglu.hid x w (rowOf t.val p) (colOf t.val q) := by
  have h0 : ¬t.val % 14 = 0 := by omega
  obtain ⟨hg, hu⟩ := acc_inv V c x w hE t.val t.isLt p q
  rw [show outsAt0 V c t.val t.isLt = _ from outsAt0_C V c t h0 h13] at hg hu ⊢
  dsimp only at hg hu ⊢
  rw [sout0_C_0_eq] at hg
  rw [sout0_C_1_eq] at hu
  rw [out0_C_3_eq]
  refine (pay5_apply _ _ p q).trans ?_
  rw [hg, hu, h13]
  unfold Swiglu.hid
  rw [Swiglu.up_eq_blocks, Swiglu.up_eq_blocks]

end

end Cert.KernelIdeal.Val

end
-- ==== Proof.KI.Value0.lean ====
/-
  The first call's result array as one function of x and w. The grid has 4 x 2 x 14 points; the point (i, j, k) works on
  rows 1024 i ... 1024 i + 1023 of x against the gate rows and the up rows 1024 j ... 1024 j + 1023 of w, one slice of 512
  columns per k, and at k = 13 writes the finished 1024 x 1024 block of hidden activations to the block at (1024 i, 1024 j)
  of the result. Every block written is the restriction of one function of x and w, entry (r, e) silu of the gate entry
  times the up entry, and the 8 blocks written cover the result: so the result array ends holding that function.
-/
import proofs.«156917_j13950053777725_2_alg».proof.Proof.KI.Accum
import proofs.«156917_j13950053777725_2_alg».proof.Proof.KI.AccumDefs
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)
open scoped BigOperators

/-- The hidden array: entry (r, e) is silu of the gate entry times the up entry. -/
def hidden (x w : (⟨2, ![4096, 7168]⟩ : Shape).Idx → EReal) : (⟨2, ![4096, 2048]⟩ : Shape).Idx → EReal :=
  fun i => Swiglu.hid x w (i 0) (i 1)

/-- The result block's indices at point t, decided over the 112 points: the row index is i = t / 28 and the column
    index is j = (t / 14) % 2. -/
theorem index_facts0 : ∀ t : Fin cfg0.N,
    win0_3.index t (0 : Fin 2) = t.val / 28 ∧ win0_3.index t (1 : Fin 2) = (t.val / 14) % 2 :=
  (by decide +kernel : ∀ t : Fin grid0.N, _)

/-- Every pair of block indices (i, j), i below 4 and j below 2, is the pair of some point with k = 13. -/
theorem index_onto0 : ∀ (q0 : Fin 4) (q1 : Fin 2),
    ∃ t : Fin cfg0.N, t.val % 14 = 13 ∧ win0_3.index t = ![q0.val, q1.val] :=
  (by decide +kernel : ∀ (q0 : Fin 4) (q1 : Fin 2), ∃ t : Fin grid0.N, t.val % 14 = 13 ∧ win0_3.index t = ![q0.val, q1.val])

/-- At a position n below 112 the row behind row p of the block is 1024 * (n / 28) + p: the reduction modulo 4096 does
    nothing, n / 28 being below 4. -/
theorem rowOf_val (n : ℕ) (hn : n < 112) (p : Fin 1024) : (rowOf n p).val = 1024 * (n / 28) + p.val := by
  have hp : p.val < 1024 := p.isLt
  show (1024 * (n / 28) + p.val) % 4096 = 1024 * (n / 28) + p.val
  omega

/-- At any position n the row behind row q of the weight blocks is 1024 * ((n / 14) % 2) + q: the reduction modulo 2048
    does nothing, (n / 14) % 2 being below 2. -/
theorem colOf_val (n : ℕ) (q : Fin 1024) : (colOf n q).val = 1024 * ((n / 14) % 2) + q.val := by
  have hq : q.val < 1024 := q.isLt
  show (1024 * ((n / 14) % 2) + q.val) % 2048 = 1024 * ((n / 14) % 2) + q.val
  omega

section
variable (V : (c : Dev nD) → (b : Ref sig .tc) → Buf (Elt Ideal) ((c : Thread nD τ).loc b))

/-- What a point with k = 13 writes back is its block of `hidden x w`. -/
theorem flushed_eq0 (c : Dev nD) (x w : (⟨2, ![4096, 7168]⟩ : Shape).Idx → EReal) (hE : Entry V c x w)
    (t : Fin cfg0.N) (hf : (cfg0.win 3).flush t = true) :
    (dat0 V c).flushed 3 t = ((cfg0.win 3).blk t).view.read (Elt Ideal) (hidden x w) := by
  have h13 : t.val % 14 = 13 := (flush0_3 t).mp hf
  have hN : cfg0.N = 112 := N_0
  have ht : t.val < 112 := lt_of_lt_of_eq t.isLt hN
  show (cfg0.win 3).cut (grid0.coords t) ((dat0 V c).after 3 t) = _
  rw [after0_3]
  obtain ⟨e0, e1⟩ := index_facts0 t
  funext j
  have hj : j = ix2 (n0 := 1024) (n1 := 1024) (j 0) (j 1) := eq_ix2 j
  show ((outsAt0 V c t.val t.isLt).1 : Vec Ideal S1024x1024 .bf16) j
      = hidden x w (((cfg0.win 3).blk t).view.emb j)
  refine (congrArg ((outsAt0 V c t.val t.isLt).1 : Vec Ideal S1024x1024 .bf16) hj).trans ?_
  refine (hidden_block V c x w hE t h13 (j 0) (j 1)).trans ?_
  have hr : rowOf t.val (j 0) = (((cfg0.win 3).blk t).view.emb j) 0 := by
    refine Fin.ext ((rowOf_val t.val ht (j 0)).trans ?_)
    show 1024 * (t.val / 28) + (j 0).val = win0_3.index t (0 : Fin 2) * 1024 + 1 * (j 0).val
    omega
  have hc : colOf t.val (j 1) = (((cfg0.win 3).blk t).view.emb j) 1 := by
    refine Fin.ext ((colOf_val t.val (j 1)).trans ?_)
    show 1024 * ((t.val / 14) % 2) + (j 1).val = win0_3.index t (1 : Fin 2) * 1024 + 1 * (j 1).val
    omega
  exact congrArg₂ (Swiglu.hid x w) hr hc

/-- An index of the result array is in point t's block iff each coordinate is in the block's range on its axis. -/
theorem mem_blk0 (t : Fin cfg0.N) (i : S4096x2048.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- The blocks written back cover the result array: entry (r, e) is in the block with indices (r / 1024, e / 1024), which
    the point with those indices and k = 13 writes back. -/
theorem covered0 (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, h13, ht⟩ := index_onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, (flush0_3 t).mpr h13, ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the first call, when the call finds x in the x array, the gate rows of w in the gate-weights
    array and the up rows of w in the up-weights array: entry (r, e) is silu of the gate entry times the up entry. -/
theorem final0 (c : Dev nD) (x w : (⟨2, ![4096, 7168]⟩ : Shape).Idx → EReal) (hE : Entry V c x w) :
    (dat0 V c).arrAt 3 cfg0.N = hidden x w :=
  (dat0 V c).arrAt_eq_of_cover 3 (hidden x w) (fun t hf => flushed_eq0 V c x w hE t hf) covered0

end

end Cert.KernelIdeal.Val

end
-- ==== Proof.KI.Value1.lean ====
/-
  The second call's result array as one function of the two arrays it reads. The grid has 4 x 4 points; the point
  (i, j) multiplies rows 1024 i ... 1024 i + 1023 of the hidden array by the transpose of rows 1792 j ... 1792 j + 1791 of
  the weight array and writes the product to the block at (1024 i, 1792 j) of the result. Every block written is the
  restriction of one function of the whole arrays, entry (r, n) the sum over e < 2048 of h (r, e) * w (n, e), and the
  16 blocks cover the result: so the result array ends holding that function.
-/
import proofs.«156917_j13950053777725_2_alg».proof.Proof.KI.Reg1
import proofs.«156917_j13950053777725_2_alg».proof.Proof.KI.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay Idealize.ShloMosaic Idealize.ShloMosaic.ValueIdx
open Idealize.ShloMosaic.TcCoe Idealize.SL.Sem
open Idealize.ShloMosaic.Pipeline (Dat)
open scoped BigOperators

/-- Rows of h against rows of w: entry (r, n) is the sum over e < 2048 of h (r, e) * w (n, e). -/
def down (h : (⟨2, ![4096, 2048]⟩ : Shape).Idx → EReal) (w : (⟨2, ![7168, 2048]⟩ : Shape).Idx → EReal) :
    (⟨2, ![4096, 7168]⟩ : Shape).Idx → EReal := fun i => ∑ e : Fin 2048, h (ix2 (i 0) e) * w (ix2 (i 1) e)

/-- The offsets (0, 0) are zero on every axis. -/
theorem zero_offsets : (![0, 0] : Fin 2 → Nat) = fun _ => 0 := funext fun a => by fin_cases a <;> rfl

/-- The block indices at point t, decided over the 16 points: the hidden block's row index is the result block's row
    index i = t / 4, the weight block's row index is the result block's column index j = t % 4, and both read all
    2048 columns. -/
theorem index_facts : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) = t.val / 4
    ∧ win1_2.index t (1 : Fin 2) = t.val % 4 :=
  (by decide +kernel : ∀ t : Fin grid1.N, _)

/-- Every pair of block indices (i, j), i and j below 4, is some point's. -/
theorem index_onto : ∀ (q0 q1 : Fin 4), ∃ t : Fin cfg1.N, win1_2.index t = ![q0.val, q1.val] :=
  (by decide +kernel : ∀ (q0 q1 : Fin 4), ∃ t : Fin grid1.N, win1_2.index t = ![q0.val, q1.val])

/-- One entry of a product block: if the left block's row p is row r of h and the right block's row n is row m of w,
    then entry (p, n) of the product of the blocks is the sum over e < 2048 of h (r, e) * w (m, e). -/
theorem block_entry (H : S4096x2048.Idx → EReal) (W : S7168x2048.Idx → EReal)
    (x0 : Vec Ideal S1024x2048 .bf16) (x1 : Vec Ideal S1792x2048 .bf16)
    (p : Fin 1024) (n : Fin 1792) (r : Fin 4096) (m : Fin 7168)
    (h0 : ∀ e : Fin 2048, x0 (ix2 p e) = H (ix2 r e))
    (h1 : ∀ e : Fin 2048, x1 (ix2 n e) = W (ix2 m e)) :
    k1_pay1 x0 x1 (ix2 p n) = ∑ e : Fin 2048, H (ix2 r e) * W (ix2 m e) := by
  refine (down_apply x0 x1 p n).trans ?_
  exact Finset.sum_congr rfl fun e _ => by rw [h0 e, h1 e]

section
variable (V : (c : Dev nD) → (b : Ref sig .tc) → Buf (Elt Ideal) ((c : Thread nD τ).loc b))

/-- The hidden block at point t, read at (p, e), is the hidden array at (1024 * block index + p, e). -/
theorem hid_block (c : Dev nD) (t : Fin cfg1.N) (y : S1024x2048.Idx) (k : S4096x2048.Idx)
    (hk0 : (k 0).val = win1_0.index t (0 : Fin 2) * 1024 + (y 0).val)
    (hk1 : (k 1).val = win1_0.index t (1 : Fin 2) * 2048 + (y 1).val) :
    (iblk1 V c 0 t : Vec Ideal S1024x2048 .bf16) y = (V c main_v5 : S4096x2048.Idx → EReal) k := by
  unfold iblk1
  rw [View.read_apply]
  show (V c main_v5 : S4096x2048.Idx → EReal) _ = V c main_v5 k
  congr 1
  funext a; apply Fin.ext
  match a with
  | ⟨0, _⟩ => show win1_0.index t (0 : Fin 2) * 1024 + 1 * (y 0).val = (k 0).val; omega
  | ⟨1, _⟩ => show win1_0.index t (1 : Fin 2) * 2048 + 1 * (y 1).val = (k 1).val; omega

/-- The weight block at point t, read at (n, e), is the weight array at (1792 * block index + n, e). -/
theorem wgt_block (c : Dev nD) (t : Fin cfg1.N) (y : S1792x2048.Idx) (k : S7168x2048.Idx)
    (hk0 : (k 0).val = win1_1.index t (0 : Fin 2) * 1792 + (y 0).val)
    (hk1 : (k 1).val = win1_1.index t (1 : Fin 2) * 2048 + (y 1).val) :
    (iblk1 V c 1 t : Vec Ideal S1792x2048 .bf16) y = (V c main_v4 : S7168x2048.Idx → EReal) k := by
  unfold iblk1
  rw [View.read_apply]
  show (V c main_v4 : S7168x2048.Idx → EReal) _ = V c main_v4 k
  congr 1
  funext a; apply Fin.ext
  match a with
  | ⟨0, _⟩ => show win1_1.index t (0 : Fin 2) * 1792 + 1 * (y 0).val = (k 0).val; omega
  | ⟨1, _⟩ => show win1_1.index t (1 : Fin 2) * 2048 + 1 * (y 1).val = (k 1).val; omega

/-- What point t writes back is block t of `down` of the two arrays as the call finds them. -/
theorem flushed_eq (c : Dev nD) (t : Fin cfg1.N) :
    (dat1 V c).flushed 2 t = ((cfg1.win 2).blk t).view.read (Elt Ideal) (down (V c main_v5) (V c main_v4)) := by
  show (cfg1.win 2).cut (grid1.coords t) ((dat1 V c).after 2 t) = _
  rw [after1_2]
  unfold out1_2
  rw [View.canon_unit_zero zero_offsets]
  simp only [View.ld_unit_zero (S := S1024x2048) zero_offsets, View.ld_unit_zero (S := S1792x2048) zero_offsets]
  obtain ⟨e0, e1, e2, e3, e4, e5⟩ := index_facts t
  funext j
  have hj : j = ix2 (n0 := 1024) (n1 := 1792) (j 0) (j 1) := eq_ix2 j
  show k1_pay1 (iblk1 V c 0 t) (iblk1 V c 1 t) j
      = down (V c main_v5) (V c main_v4) (((cfg1.win 2).blk t).view.emb j)
  refine (congrArg (k1_pay1 (iblk1 V c 0 t) (iblk1 V c 1 t)) hj).trans ?_
  refine block_entry (V c main_v5) (V c main_v4) (iblk1 V c 0 t) (iblk1 V c 1 t) (j 0) (j 1)
    ((((cfg1.win 2).blk t).view.emb j) 0) ((((cfg1.win 2).blk t).view.emb j) 1) (fun e => ?_) (fun e => ?_)
  · refine hid_block V c t _ _ ?_ ?_
    · show win1_2.index t (0 : Fin 2) * 1024 + 1 * (j 0).val = win1_0.index t (0 : Fin 2) * 1024 + (j 0).val
      omega
    · show e.val = win1_0.index t (1 : Fin 2) * 2048 + e.val
      omega
  · refine wgt_block V c t _ _ ?_ ?_
    · show win1_2.index t (1 : Fin 2) * 1792 + 1 * (j 1).val = win1_1.index t (0 : Fin 2) * 1792 + (j 1).val
      omega
    · show e.val = win1_1.index t (1 : Fin 2) * 2048 + e.val
      omega

/-- An index of the result array is in point t's block iff each coordinate is in the block's range on its axis. -/
theorem mem_blk (t : Fin cfg1.N) (i : S4096x7168.Idx) :
    i ∈ ((cfg1.win 2).blk t).view.set ↔ ∀ a : Fin 2, win1_2.index t a * S1024x1792.size a ≤ (i a).val
      ∧ (i a).val < win1_2.index t a * S1024x1792.size a + S1024x1792.size a := by
  show i ∈ ((View.whole main_v6).slice (win1_2.rect t)).set ↔ _
  rw [View.set_slice_whole, Rect.mem_set_unit]
  exact Iff.rfl

/-- The 16 blocks cover the result array: entry (r, n) is in the block with indices (r / 1024, n / 1792), and every point
    writes its block back. -/
theorem covered (i : S4096x7168.Idx) :
    ∃ t : Fin cfg1.N, (cfg1.win 2).flush t = true ∧ i ∈ ((cfg1.win 2).blk t).view.set := by
  have hi0 : (i 0).val < 4096 := (i 0).isLt
  have hi1 : (i 1).val < 7168 := (i 1).isLt
  obtain ⟨t, ht⟩ := index_onto ⟨(i 0).val / 1024, by omega⟩ ⟨(i 1).val / 1792, by omega⟩
  have q0 : win1_2.index t (0 : Fin 2) = (i 0).val / 1024 := congrFun ht 0
  have q1 : win1_2.index t (1 : Fin 2) = (i 1).val / 1792 := congrFun ht 1
  refine ⟨t, flush1_2 t, ?_⟩
  rw [mem_blk]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1792 ≤ (i 1).val ∧ (i 1).val < win1_2.index t (1 : Fin 2) * 1792 + 1792
    omega

/-- The result array after the second call: entry (r, n) is the sum over e < 2048 of the hidden array at (r, e) times the
    weight array at (n, e), the two arrays as the call finds them. -/
theorem final1 (c : Dev nD) :
    (dat1 V c).arrAt 2 cfg1.N = down (V c main_v5) (V c main_v4) :=
  (dat1 V c).arrAt_eq_of_cover 2 (down (V c main_v5) (V c main_v4)) (fun t _ => flushed_eq V c t) covered

end

end Cert.KernelIdeal.Val

end
-- ==== Proof.KI.HostVals.lean ====
/-
  What the host operations in front of the two pallas_calls hand them, on the extended reals, and the whole program's
  result. A change of float format is the identity on the extended reals, so the x array the first call finds is the first
  argument, its gate-weights array the first 2048 rows of the second argument and its up-weights array the last 2048
  rows; the second call finds the hidden array the first call wrote and the third argument. Hence the result array is
  `Swiglu.out` of the three arguments.
-/
import proofs.«156917_j13950053777725_2_alg».proof.Proof.KI.Main
import proofs.«156917_j13950053777725_2_alg».proof.Proof.KI.Value0
import proofs.«156917_j13950053777725_2_alg».proof.Proof.KI.Value1
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

/-- The three arguments on core c, as functions of an index. -/
abbrev argX : S4096x7168.Idx → EReal := m ((c.tc : Thread nD τ).loc main_arg0)
abbrev argW : S4096x7168.Idx → EReal := m ((c.tc : Thread nD τ).loc main_arg1)
abbrev argD : S7168x2048.Idx → EReal := m ((c.tc : Thread nD τ).loc main_arg2)

/-- The x array the first call finds is the first argument. -/
theorem v0_eq : (V1 m ρ c main_v0 : S4096x7168.Idx → EReal) = argX m c := by
  show StableHlo.after hostOps0 (W0 m ρ c) (Proc.devRef .tc main_v0) = _
  after_results
  rfl

/-- Its gate-weights array is the first 2048 rows of the second argument. -/
theorem v2_apply (e : Fin 2048) (k : Fin 7168) :
    (V1 m ρ c main_v2 : S2048x7168.Idx → EReal) (ix2 e k) = argW m c (ix2 (Swiglu.gateRow e) k) := by
  have h : (V1 m ρ c main_v2 : S2048x7168.Idx → EReal)
      = extractStridedSlice S2048x7168 ![0, 0] (truncf (F := Ideal) .bf16 (W0 m ρ c (Proc.devRef .tc main_arg1)) bitsLt_bf16_f32) slices_S4096x7168_S2048x7168_0_0 := by
    show StableHlo.after hostOps0 (W0 m ρ c) (Proc.devRef .tc main_v2) = _
    after_results
    all_goals rfl
  rw [h]
  refine (extractStridedSlice_apply ![0, 0] _ slices_S4096x7168_S2048x7168_0_0 (ix2 e k) (ix2 (Swiglu.gateRow e) k) (fun a => ?_)).trans rfl
  match a with
  | ⟨0, _⟩ => show e.val = 0 + e.val; omega
  | ⟨1, _⟩ => show k.val = 0 + k.val; omega

/-- Its up-weights array is the last 2048 rows of the second argument. -/
theorem v3_apply (e : Fin 2048) (k : Fin 7168) :
    (V1 m ρ c main_v3 : S2048x7168.Idx → EReal) (ix2 e k) = argW m c (ix2 (Swiglu.upRow e) k) := by
  have h : (V1 m ρ c main_v3 : S2048x7168.Idx → EReal)
      = extractStridedSlice S2048x7168 ![2048, 0] (truncf (F := Ideal) .bf16 (W0 m ρ c (Proc.devRef .tc main_arg1)) bitsLt_bf16_f32) slices_S4096x7168_S2048x7168_2048_0 := by
    show StableHlo.after hostOps0 (W0 m ρ c) (Proc.devRef .tc main_v3) = _
    after_results
    all_goals rfl
  rw [h]
  refine (extractStridedSlice_apply ![2048, 0] _ slices_S4096x7168_S2048x7168_2048_0 (ix2 e k) (ix2 (Swiglu.upRow e) k) (fun a => ?_)).trans rfl
  match a with
  | ⟨0, _⟩ => show 2048 + e.val = 2048 + e.val; rfl
  | ⟨1, _⟩ => show k.val = 0 + k.val; omega

/-- What the first call finds. -/
theorem entry : Entry (V1 m ρ) c (argX m c) (argW m c) :=
  ⟨fun r k => by rw [v0_eq], v2_apply m ρ c, v3_apply m ρ c⟩

/-- The weights array the second call finds is the third argument: the first call does not touch it. -/
theorem v4_eq : (V2 m ρ c main_v4 : S7168x2048.Idx → EReal) = argD m c := by
  show W2 m ρ c (Proc.devRef .tc main_v4) = _
  rw [W2_of_ne m ρ c main_v4 (by decide)]
  show StableHlo.after hostOps0 (W0 m ρ c) (Proc.devRef .tc main_v4) = _
  after_results
  rfl

/-- The hidden array the second call finds is what the first call's write-backs left: the hidden activations. -/
theorem v5_eq : (V2 m ρ c main_v5 : S4096x2048.Idx → EReal) = hidden (argX m c) (argW m c) :=
  (W2_arr m ρ c 3).trans (final0 (V1 m ρ) c (argX m c) (argW m c) (entry m ρ c))

/-- Rows of the hidden array against rows of d is the specification's result. -/
theorem down_hidden (x w : (⟨2, ![4096, 7168]⟩ : Shape).Idx → EReal) (d : (⟨2, ![7168, 2048]⟩ : Shape).Idx → EReal) :
    down (hidden x w) d = Swiglu.out x w d := by
  funext i; rfl

/-- The result array after the second call is the specification's function of the three arguments. -/
theorem result_eq : (dat1 (V2 m ρ) c).arrAt 2 cfg1.N = Swiglu.out (argX m c) (argW m c) (argD m c) := by
  rw [final1 (V2 m ρ) c, v5_eq, v4_eq, down_hidden]

/-- THE KERNEL'S RUN, with its result named: every weakly fair execution terminates, nothing faulting; the result array
    ends at the specification's function of the arguments, and the arguments end as launched. -/
theorem kernel_run : θ_run defs (onTc (τ := τ) (main (F := Ideal))) ⟨m, fun _ => 0, ρ⟩ (fun r => ∀ c : Dev nD,
      r.2.mem ((c.tc : Thread nD τ).loc main_v6) = Swiglu.out (argX m c) (argW m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.Val

end
-- ==== Proof.RefValue.lean ====
/-
  The reference's result, read entry by entry, is the function `Swiglu.out` of its three arguments.
-/
import proofs.«156917_j13950053777725_2_alg».proof.Proof.Gen.ReferenceIdeal.Read
import proofs.«156917_j13950053777725_2_alg».proof.Proof.Spec
import proofs.«156917_j13950053777725_2_alg».proof.Proof.LibDotRows

noncomputable section

namespace Swiglu.Ref

open Cert.ReferenceIdeal Cert.ReferenceIdeal.Read Idealize.ShloMosaic Idealize.ShloMosaic.ValueIdx
open scoped BigOperators

/-- The 32-bit pattern 0x3F800000 (sign 0, biased exponent 127, fraction 0) denotes the number one. -/
theorem one_word : Ideal.ofBits .f32 0x3F800000#32 = (1 : EReal) := by
  simp [Ideal.ofBits, Ideal.ieee, -EReal.coe_mul]; norm_num

/-- Entry (r, c) of the first product, x times the transpose of w, is the sum over k of x (r, k) * w (c, k). -/
theorem prod_eq (x w : (⟨S4096x7168, .f32⟩ : BufTy).Contents (Elt Ideal)) (i : S4096x4096.Idx) :
    val_main_v0 (F := Ideal) x w i = Swiglu.up x w (i 0) (i 1) := by
  rw [val_main_v0_apply]
  unfold Swiglu.up
  refine Finset.sum_congr rfl fun k _ => ?_
  have el : lidx_main_v0 i k = ix2 (i 0) k := by
    funext a; match a with | ⟨0, _⟩ => rfl | ⟨1, _⟩ => rfl
  have er : ridx_main_v0 i k = ix2 (i 1) k := by
    funext a; match a with | ⟨0, _⟩ => rfl | ⟨1, _⟩ => rfl
  rw [el, er]
  rfl

/-- The first slice keeps columns 0 to 2047 of the product: its entry (r, e) is the product's entry at the gate row e of w. -/
theorem gate_eq (x w : (⟨S4096x7168, .f32⟩ : BufTy).Contents (Elt Ideal)) (j : S4096x2048.Idx) :
    val_main_v1 (F := Ideal) x w j = Swiglu.up x w (j 0) (Swiglu.gateRow (j 1)) := by
  rw [val_main_v1_apply, prod_eq]
  rfl

/-- The second slice keeps columns 2048 to 4095 of the product: its entry (r, e) is the product's entry at the up row 2048 + e of w. -/
theorem up_eq (x w : (⟨S4096x7168, .f32⟩ : BufTy).Contents (Elt Ideal)) (j : S4096x2048.Idx) :
    val_main_v2 (F := Ideal) x w j = Swiglu.up x w (j 0) (Swiglu.upRow (j 1)) := by
  rw [val_main_v2_apply, prod_eq]
  rfl

/-- The called function multiplies its argument g by 1 / (1 + exp (-g)), which is the logistic of g: its result is silu g. -/
theorem silu_eq (x w : (⟨S4096x7168, .f32⟩ : BufTy).Contents (Elt Ideal)) (j : S4096x2048.Idx) :
    val_main_v3 (F := Ideal) x w j = Swiglu.silu (val_main_v1 (F := Ideal) x w j) := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply]
  generalize val_main_v1 (F := Ideal) x w j = g
  rw [Ideal.mulf_def, Ideal.hostDivf_def, Ideal.addf_def, Ideal.hostUnary_exp_def, Ideal.hostNegf_def,
    Ideal.negf_def, Ideal.ofBits_def, one_word]
  rfl

/-- The hidden activation: the reference's entry (r, e) before the second product is silu of the gate entry times the up entry. -/
theorem hid_eq (x w : (⟨S4096x7168, .f32⟩ : BufTy).Contents (Elt Ideal)) (j : S4096x2048.Idx) :
    val_main_v4 (F := Ideal) x w j = Swiglu.hid x w (j 0) (j 1) := by
  rw [val_main_v4_apply, silu_eq, gate_eq, up_eq, Ideal.mulf_def]
  rfl

/-- The reference's result at (r, n) is the sum over e of the hidden activation at (r, e) times d (n, e): the function `Swiglu.out`. -/
theorem result_eq
    (x w : (⟨Cert.ReferenceIdeal.S4096x7168, .f32⟩ : BufTy).Contents (Elt Ideal))
    (d : (⟨Cert.ReferenceIdeal.S7168x2048, .f32⟩ : BufTy).Contents (Elt Ideal)) :
    Cert.ReferenceIdeal.Read.val_main_v5 (F := Ideal) x w d = Swiglu.out x w d := by
  funext i
  rw [val_main_v5_apply]
  unfold Swiglu.out
  refine Finset.sum_congr rfl fun e _ => ?_
  have er : ridx_main_v5 i e = ix2 (i 1) e := by
    funext a; match a with | ⟨0, _⟩ => rfl | ⟨1, _⟩ => rfl
  rw [hid_eq, er]
  rfl

end Swiglu.Ref

end
-- ==== Proof.lean ====
/-
  A SwiGLU feed-forward block in two Pallas kernels against its plain jnp reference, equal on the extended reals.

  Both programs compute, for x : [4096, 7168], w : [4096, 7168] and d : [7168, 2048],

      out (r, n) = sum over e < 2048 of  (silu (g r e) * u r e) * d (n, e),
      g r e = sum over k < 7168 of x (r, k) * w (e, k),      u r e = sum over k < 7168 of x (r, k) * w (2048 + e, k),

  with silu z = z * logistic z (`Swiglu.out`, Proof/Spec.lean). The reference spells it with one product x w^T, two
  column slices, silu as z * (1 / (1 + exp (-z))) and a second product; on the extended reals logistic z IS
  1 / (1 + exp (-z)), and the host's products are plain sums (Proof/RefValue.lean). The kernel rounds its operands to
  bf16 (the identity on the extended reals), slices w's rows before the first call, accumulates g and u over 14 blocks
  of 512 terms in two scratch accumulators carried across the innermost grid axis (Proof/KI/Accum.lean: a sum of 7168
  terms is the sum of its 14 blocks, by commutativity and associativity alone), writes silu (g) * u where the last
  block has been added, and multiplies by d^T in a second call whose every point holds a whole contraction
  (Proof/KI/Value0.lean, Value1.lean, HostVals.lean). No law used needs finiteness: the precondition is never opened.

  The frames — every weakly fair execution of each program terminates, nothing faults, the arguments end as
  launched — are, for the kernel at both instances, the run over the program's three segments (a stretch of five host
  operations and the two calls), the first call's invariant carrying its two accumulators from grid point to grid point
  (Proof/KI/*.lean at the extended reals, Proof/KB/*.lean word for word at the bit level); the reference's is its run.
  The idealization rewrote nothing, so `preserves` is trivial.
-/
import proofs.«156917_j13950053777725_2_alg».proof.Defs
import proofs.«156917_j13950053777725_2_alg».proof.Proof.Gen.Kernel
import proofs.«156917_j13950053777725_2_alg».proof.Proof.Gen.KernelIdeal
import proofs.«156917_j13950053777725_2_alg».proof.Proof.Gen.ReferenceIdeal
import proofs.«156917_j13950053777725_2_alg».proof.Proof.Gen.Pre_finite_inputs
import proofs.«156917_j13950053777725_2_alg».proof.Proof.Gen.ReferenceIdeal.Run
import proofs.«156917_j13950053777725_2_alg».proof.Proof.Gen.ReferenceIdeal.Read
import proofs.«156917_j13950053777725_2_alg».proof.Proof.KB.Main
import proofs.«156917_j13950053777725_2_alg».proof.Proof.KI.Main
import proofs.«156917_j13950053777725_2_alg».proof.Proof.KI.HostVals
import proofs.«156917_j13950053777725_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end, and both results are `Swiglu.out` of the arguments: the
    kernel's by its run with the result named, the reference's by its run read one operation at a time. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Swiglu.out (Cert.KernelIdeal.Val.argX m c) (Cert.KernelIdeal.Val.argW m c) (Cert.KernelIdeal.Val.argD m c),
    Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Swiglu.Ref.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
